-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S1x64 : Shape := ⟨2, ![1, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2x600000 : Shape := ⟨2, ![2, 600000]⟩
abbrev S50000 : Shape := ⟨1, ![50000]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S64x32 .f32) (main_arg8 : FVec F S32 .f32) (main_arg9 : FVec F S32x1 .f32) (main_arg10 : FVec F S1 .f32) (main_v33 : IVec S_ 1) : IVec S_ 1 :=
  let main_v34 : FVec F S64x32 .f32 := Host.absf main_arg7
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg9
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S128 .f32) (main_arg5 : FVec F S128x64 .f32) (main_arg6 : FVec F S64 .f32) (main_arg7 : FVec F S64x32 .f32) (main_arg8 : FVec F S32 .f32) (main_arg9 : FVec F S32x1 .f32) (main_arg10 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x1 .f32) (main_arg1 : FVec F S1x64 .f32) (main_arg2 : FVec F S64 .f32) (main_arg3 : FVec F S64x128 .f32) (main_arg4 : FVec F S128 .f32) (main_arg5 : FVec F S128x64 .f32) (main_arg6 : FVec F S64 .f32) (main_arg7 : FVec F S64x32 .f32) (main_arg8 : FVec F S32 .f32) (main_arg9 : FVec F S32x1 .f32) (main_arg10 : FVec F S1 .f32) (main_arg11 : IVec S2x600000 32) (main_arg12 : IVec S50000 32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_arg9 main_arg10 main_v13 main_v16
-- ==== Kernel.lean ====
abbrev S50000x1 : Shape := ⟨2, ![50000, 1]⟩
abbrev S1x64 : Shape := ⟨2, ![1, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x64 : Shape := ⟨2, ![50000, 64]⟩
abbrev S5000x1 : Shape := ⟨2, ![5000, 1]⟩
abbrev S5000x64 : Shape := ⟨2, ![5000, 64]⟩
abbrev S600000x64 : Shape := ⟨2, ![600000, 64]⟩
abbrev S50000x128 : Shape := ⟨2, ![50000, 128]⟩
abbrev S5000x128 : Shape := ⟨2, ![5000, 128]⟩
abbrev S600000x128 : Shape := ⟨2, ![600000, 128]⟩
abbrev S1x128 : Shape := ⟨2, ![1, 128]⟩
abbrev S256x64 : Shape := ⟨2, ![256, 64]⟩
abbrev S256 : Shape := ⟨1, ![256]⟩
abbrev S256x1 : Shape := ⟨2, ![256, 1]⟩
abbrev S1x32 : Shape := ⟨2, ![1, 32]⟩
abbrev S1x1 : Shape := ⟨2, ![1, 1]⟩
abbrev S256x32 : Shape := ⟨2, ![256, 32]⟩

abbrev nBuf : Space → Nat
  | .hbm => 132
  | .vmem => 42
  | .smem => 0
  | _ => 0

abbrev hbmTy0_0 (i : Nat) : BufTy := match i % 128 with
  | 0 => ⟨S50000x1, .f32⟩
  | 1 => ⟨S1x64, .f32⟩
  | 2 => ⟨S64, .f32⟩
  | 3 => ⟨S64x128, .f32⟩
  | 4 => ⟨S128, .f32⟩
  | 5 => ⟨S128x64, .f32⟩
  | 6 => ⟨S64, .f32⟩
  | 7 => ⟨S64x32, .f32⟩
  | 8 => ⟨S32, .f32⟩
  | 9 => ⟨S32x1, .f32⟩
  | 10 => ⟨S1, .f32⟩
  | 11 => ⟨S2x600000, .i32⟩
  | 12 => ⟨S50000, .i32⟩
  | 13 => ⟨S1x600000, .i32⟩
  | 14 => ⟨S600000, .i32⟩
  | 15 => ⟨S1x600000, .i32⟩
  | 16 => ⟨S600000, .i32⟩
  | 17 => ⟨S_, .f32⟩
  | 18 => ⟨S600000, .f32⟩
  | 19 => ⟨S_, .f32⟩
  | 20 => ⟨S50000, .f32⟩
  | 21 => ⟨S600000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S50000, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000, .f32⟩
  | 46 => ⟨S600000, .f32⟩
  | 47 => ⟨S50000x64, .f32⟩
  | 48 => ⟨S_, .i32⟩
  | 49 => ⟨S600000, .i32⟩
  | 50 => ⟨S600000, .i1⟩
  | 51 => ⟨S_, .i32⟩
  | 52 => ⟨S600000, .i32⟩
  | 53 => ⟨S600000, .i32⟩
  | 54 => ⟨S600000, .i32⟩
  | 55 => ⟨S600000x1, .i32⟩
  | 56 => ⟨S600000x64, .f32⟩
  | 57 => ⟨S600000x1, .f32⟩
  | 58 => ⟨S600000x64, .f32⟩
  | 59 => ⟨S600000x64, .f32⟩
  | 60 => ⟨S_, .f32⟩
  | 61 => ⟨S50000x64, .f32⟩
  | 62 => ⟨S600000x1, .i32⟩
  | 63 => ⟨S50000x64, .f32⟩
  | 64 => ⟨S50000x1, .f32⟩
  | 65 => ⟨S50000x64, .f32⟩
  | 66 => ⟨S50000x64, .f32⟩
  | 67 => ⟨S1x64, .f32⟩
  | 68 => ⟨S50000x64, .f32⟩
  | 69 => ⟨S50000x128, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S600000x128, .f32⟩
  | 79 => ⟨S600000x1, .f32⟩
  | 80 => ⟨S600000x128, .f32⟩
  | 81 => ⟨S600000x128, .f32⟩
  | 82 => ⟨S_, .f32⟩
  | 83 => ⟨S50000x128, .f32⟩
  | 84 => ⟨S600000x1, .i32⟩
  | 85 => ⟨S50000x128, .f32⟩
  | 86 => ⟨S50000x1, .f32⟩
  | 87 => ⟨S50000x128, .f32⟩
  | 88 => ⟨S50000x128, .f32⟩
  | 89 => ⟨S1x128, .f32⟩
  | 90 => ⟨S50000x128, .f32⟩
  | 91 => ⟨S50000x64, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000x64, .f32⟩
  | 101 => ⟨S600000x1, .f32⟩
  | 102 => ⟨S600000x64, .f32⟩
  | 103 => ⟨S600000x64, .f32⟩
  | 104 => ⟨S_, .f32⟩
  | 105 => ⟨S50000x64, .f32⟩
  | 106 => ⟨S600000x1, .i32⟩
  | 107 => ⟨S50000x64, .f32⟩
  | 108 => ⟨S50000x1, .f32⟩
  | 109 => ⟨S50000x64, .f32⟩
  | 110 => ⟨S50000x64, .f32⟩
  | 111 => ⟨S1x64, .f32⟩
  | 112 => ⟨S50000x64, .f32⟩
  | 113 => ⟨S_, .f32⟩
  | 114 => ⟨S256x64, .f32⟩
  | 115 => ⟨S50000x1, .i32⟩
  | 116 => ⟨S256x64, .f32⟩
  | 117 => ⟨S_, .f32⟩
  | 118 => ⟨S50000, .f32⟩
  | 119 => ⟨S_, .f32⟩
  | 120 => ⟨S256, .f32⟩
  | 121 => ⟨S50000x1, .i32⟩
  | 122 => ⟨S256, .f32⟩
  | 123 => ⟨S_, .f32⟩
  | 124 => ⟨S256, .f32⟩
  | 125 => ⟨S256, .f32⟩
  | 126 => ⟨S256x1, .f32⟩
  | 127 => ⟨S256x64, .f32⟩
  | _ => ⟨S50000x1, .f32⟩

abbrev hbmTy0_1 (i : Nat) : BufTy := match i % 128 with
  | 0 => ⟨S256x64, .f32⟩
  | 1 => ⟨S1x32, .f32⟩
  | 2 => ⟨S1x1, .f32⟩
  | 3 => ⟨S256x1, .f32⟩
  | _ => ⟨S50000x1, .f32⟩

abbrev hbmTy (i : Nat) : BufTy := match i / 128 with
  | 0 => hbmTy0_0 i
  | 1 => hbmTy0_1 i
  | _ => ⟨S50000x1, .f32⟩

abbrev bufTy : (tb : Table) → Fin (tcTables nBuf tb) → BufTy
  | .hbm, ⟨i, _⟩ => hbmTy i
  | .local _ .vmem, ⟨0, _⟩ => ⟨S5000x1, .f32⟩
  | .local _ .vmem, ⟨1, _⟩ => ⟨S5000x1, .f32⟩
  | .local _ .vmem, ⟨2, _⟩ => ⟨S1x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S256x64, .f32⟩
  | .local _ .vmem, ⟨37, _⟩ => ⟨S64x32, .f32⟩
  | .local _ .vmem, ⟨38, _⟩ => ⟨S1x32, .f32⟩
  | .local _ .vmem, ⟨39, _⟩ => ⟨S32x1, .f32⟩
  | .local _ .vmem, ⟨40, _⟩ => ⟨S1x1, .f32⟩
  | .local _ .vmem, ⟨41, _⟩ => ⟨S256x1, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_8 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_11 : Ref sig .tc := ⟨.hbm, 92, rfl⟩
abbrev main_v66 : Ref sig .tc := ⟨.hbm, 93, rfl⟩
abbrev main_v67 : Ref sig .tc := ⟨.hbm, 94, rfl⟩
abbrev main_c_12 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_13 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_14 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_15 : Ref sig .tc := ⟨.hbm, 117, rfl⟩
abbrev main_v87 : Ref sig .tc := ⟨.hbm, 118, rfl⟩
abbrev main_cst_16 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_17 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg3_0 : Ref sig .tc := ⟨.vmem, 39, rfl⟩
abbrev cc6_stg4_0 : Ref sig .tc := ⟨.vmem, 40, rfl⟩
abbrev cc6_stg5_0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem1_0 : DmaSem sig := 37
abbrev cc6_sem2_0 : DmaSem sig := 38
abbrev cc6_sem3_0 : DmaSem sig := 39
abbrev cc6_sem4_0 : DmaSem sig := 40
abbrev cc6_sem5_0 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S256x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  inb_S5000x1_S5000x1_0_0 : ∀ a, (![0, 0] : Fin 2 → Nat) a + S5000x1.size a ≤ S5000x1.size a
  h_S5000x1 : 0 < S5000x1.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  inb_S5000x64_S5000x64_0_0 : ∀ a, (![0, 0] : Fin 2 → Nat) a + S5000x64.size a ≤ S5000x64.size a
  h_S5000x64 : 0 < S5000x64.numel
  bcast_S600000x1_S600000x64_0_1 : S600000x1.BroadcastsInDim S600000x64 (![0, 1] : Fin 2 → Fin S600000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S64_S1x64 : S64.ShapeCasts S1x64
  shapeCasts_S5000x64_S5000x64 : S5000x64.ShapeCasts S5000x64
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  shapeCasts_S32_S1x32 : S32.ShapeCasts S1x32
  shapeCasts_S1_S1x1 : S1.ShapeCasts S1x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S5000x1_S1x64_S5000x64_1_0_0_1_n_n_wf : DotDims.WF S5000x1 S1x64 S5000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  dot_S5000x64_S64x128_S5000x128_1_0_0_1_n_n_wf : DotDims.WF S5000x64 S64x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x64_S5000x64_1_0_0_1_n_n_wf : DotDims.WF S5000x128 S128x64 S5000x64 [1] [0] [0] [1] [] []
  scatter_S256x64_S50000x1_S50000x64_1_0_0_1_wf : ScatterDims.WF S256x64 S50000x1 S50000x64 [1] [0] [0] 1
  scatter_S256_S50000x1_S50000_n_0_0_1_wf : ScatterDims.WF S256 S50000x1 S50000 [] [0] [0] 1
  dot_S256x64_S64x32_S256x32_1_0_0_1_n_n_wf : DotDims.WF S256x64 S64x32 S256x32 [1] [0] [0] [1] [] []
  dot_S256x32_S32x1_S256x1_1_0_0_1_n_n_wf : DotDims.WF S256x32 S32x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S50000x1.size a
  hwx0_0 : ∀ i : grid0.Coords, EltTy.bits .f32 = 32 ∨ (Rect.block (s := S50000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S256x64.size a ≤ S256x64.size a
  hwx6_0 : ∀ i : grid6.Coords, EltTy.bits .f32 = 32 ∨ (Rect.block (s := S256x64) S256x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x1.size a ≤ S32x1.size a
  hwx6_3 : ∀ i : grid6.Coords, EltTy.bits .f32 = 32 ∨ (Rect.block (s := S32x1) S32x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x1.size a ≤ S256x1.size a
  hwx6_5 : ∀ i : grid6.Coords, EltTy.bits .f32 = 32 ∨ (Rect.block (s := S256x1) S256x1.size (cc6_transform_5 i) (hinb6_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S5000x1_S1x64_S5000x64_1_0_0_1_n_n : DotDims S5000x1 S1x64 S5000x64 where
  lhsContracting := [1]
  rhsContracting := [0]
  lhsNonContracting := [0]
  rhsNonContracting := [1]
  lhsBatch := []
  rhsBatch := []
  wf := dot_S5000x1_S1x64_S5000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x1_S256x1_1_0_0_1_n_n : DotDims S256x32 S32x1 S256x1 where
  lhsContracting := [1]
  rhsContracting := [0]
  lhsNonContracting := [0]
  rhsNonContracting := [1]
  lhsBatch := []
  rhsBatch := []
  wf := dot_S256x32_S32x1_S256x1_1_0_0_1_n_n_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v64) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v78) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v82) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v83) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v95) S256x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v96) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg9) S32x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v97) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v98) S256x1.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x1 : Shape := ⟨2, ![50000, 1]⟩
abbrev S1x64 : Shape := ⟨2, ![1, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S50000x64 : Shape := ⟨2, ![50000, 64]⟩
abbrev S_ : Shape := ⟨0, ![]⟩
abbrev S600000x1 : Shape := ⟨2, ![600000, 1]⟩
abbrev S600000x64 : Shape := ⟨2, ![600000, 64]⟩
abbrev S50000x128 : Shape := ⟨2, ![50000, 128]⟩
abbrev S600000x128 : Shape := ⟨2, ![600000, 128]⟩
abbrev S1x128 : Shape := ⟨2, ![1, 128]⟩
abbrev S256x64 : Shape := ⟨2, ![256, 64]⟩
abbrev S256 : Shape := ⟨1, ![256]⟩
abbrev S256x1 : Shape := ⟨2, ![256, 1]⟩
abbrev S256x32 : Shape := ⟨2, ![256, 32]⟩
abbrev S1x32 : Shape := ⟨2, ![1, 32]⟩
abbrev S1x1 : Shape := ⟨2, ![1, 1]⟩

abbrev nBuf : Space → Nat
  | .hbm => 215
  | .vmem => 0
  | .smem => 0
  | _ => 0

abbrev hbmTy0_0 (i : Nat) : BufTy := match i % 128 with
  | 0 => ⟨S50000x1, .f32⟩
  | 1 => ⟨S1x64, .f32⟩
  | 2 => ⟨S64, .f32⟩
  | 3 => ⟨S64x128, .f32⟩
  | 4 => ⟨S128, .f32⟩
  | 5 => ⟨S128x64, .f32⟩
  | 6 => ⟨S64, .f32⟩
  | 7 => ⟨S64x32, .f32⟩
  | 8 => ⟨S32, .f32⟩
  | 9 => ⟨S32x1, .f32⟩
  | 10 => ⟨S1, .f32⟩
  | 11 => ⟨S2x600000, .i32⟩
  | 12 => ⟨S50000, .i32⟩
  | 13 => ⟨S1x600000, .i32⟩
  | 14 => ⟨S600000, .i32⟩
  | 15 => ⟨S1x600000, .i32⟩
  | 16 => ⟨S600000, .i32⟩
  | 17 => ⟨S50000x64, .f32⟩
  | 18 => ⟨S_, .f32⟩
  | 19 => ⟨S600000, .f32⟩
  | 20 => ⟨S_, .f32⟩
  | 21 => ⟨S50000, .f32⟩
  | 22 => ⟨S600000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000x64, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000, .f32⟩
  | 55 => ⟨S600000, .f32⟩
  | 56 => ⟨S600000x1, .f32⟩
  | 57 => ⟨S600000x64, .f32⟩
  | 58 => ⟨S600000x64, .f32⟩
  | 59 => ⟨S_, .f32⟩
  | 60 => ⟨S50000x64, .f32⟩
  | 61 => ⟨S600000x1, .i32⟩
  | 62 => ⟨S50000x64, .f32⟩
  | 63 => ⟨S50000, .f32⟩
  | 64 => ⟨S50000x1, .f32⟩
  | 65 => ⟨S50000x64, .f32⟩
  | 66 => ⟨S50000x64, .f32⟩
  | 67 => ⟨S50000x64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S50000x128, .f32⟩
  | 75 => ⟨S_, .f32⟩
  | 76 => ⟨S600000, .f32⟩
  | 77 => ⟨S_, .f32⟩
  | 78 => ⟨S50000, .f32⟩
  | 79 => ⟨S600000x1, .i32⟩
  | 80 => ⟨S50000, .f32⟩
  | 81 => ⟨S_, .f32⟩
  | 82 => ⟨S50000, .f32⟩
  | 83 => ⟨S50000, .f32⟩
  | 84 => ⟨S50000, .f32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S600000x128, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000, .f32⟩
  | 103 => ⟨S_, .i32⟩
  | 104 => ⟨S600000, .i32⟩
  | 105 => ⟨S600000, .i1⟩
  | 106 => ⟨S_, .i32⟩
  | 107 => ⟨S600000, .i32⟩
  | 108 => ⟨S600000, .i32⟩
  | 109 => ⟨S600000, .i32⟩
  | 110 => ⟨S600000x1, .i32⟩
  | 111 => ⟨S600000, .f32⟩
  | 112 => ⟨S600000, .f32⟩
  | 113 => ⟨S600000x1, .f32⟩
  | 114 => ⟨S600000x128, .f32⟩
  | 115 => ⟨S600000x128, .f32⟩
  | 116 => ⟨S_, .f32⟩
  | 117 => ⟨S50000x128, .f32⟩
  | 118 => ⟨S600000x1, .i32⟩
  | 119 => ⟨S50000x128, .f32⟩
  | 120 => ⟨S50000, .f32⟩
  | 121 => ⟨S50000x1, .f32⟩
  | 122 => ⟨S50000x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x1, .f32⟩

abbrev hbmTy0_1 (i : Nat) : BufTy := match i % 128 with
  | 0 => ⟨S_, .f32⟩
  | 1 => ⟨S50000x128, .f32⟩
  | 2 => ⟨S50000x128, .f32⟩
  | 3 => ⟨S50000x64, .f32⟩
  | 4 => ⟨S_, .f32⟩
  | 5 => ⟨S600000, .f32⟩
  | 6 => ⟨S_, .f32⟩
  | 7 => ⟨S50000, .f32⟩
  | 8 => ⟨S600000x1, .i32⟩
  | 9 => ⟨S50000, .f32⟩
  | 10 => ⟨S_, .f32⟩
  | 11 => ⟨S50000, .f32⟩
  | 12 => ⟨S50000, .f32⟩
  | 13 => ⟨S50000, .f32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S600000x64, .f32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000, .f32⟩
  | 41 => ⟨S600000, .f32⟩
  | 42 => ⟨S600000x1, .f32⟩
  | 43 => ⟨S600000x64, .f32⟩
  | 44 => ⟨S600000x64, .f32⟩
  | 45 => ⟨S_, .f32⟩
  | 46 => ⟨S50000x64, .f32⟩
  | 47 => ⟨S600000x1, .i32⟩
  | 48 => ⟨S50000x64, .f32⟩
  | 49 => ⟨S50000, .f32⟩
  | 50 => ⟨S50000x1, .f32⟩
  | 51 => ⟨S50000x64, .f32⟩
  | 52 => ⟨S50000x64, .f32⟩
  | 53 => ⟨S50000x64, .f32⟩
  | 54 => ⟨S1x64, .f32⟩
  | 55 => ⟨S50000x64, .f32⟩
  | 56 => ⟨S50000x64, .f32⟩
  | 57 => ⟨S_, .f32⟩
  | 58 => ⟨S50000x64, .f32⟩
  | 59 => ⟨S50000x64, .f32⟩
  | 60 => ⟨S_, .f32⟩
  | 61 => ⟨S256x64, .f32⟩
  | 62 => ⟨S50000x1, .i32⟩
  | 63 => ⟨S256x64, .f32⟩
  | 64 => ⟨S_, .f32⟩
  | 65 => ⟨S50000, .f32⟩
  | 66 => ⟨S_, .f32⟩
  | 67 => ⟨S256, .f32⟩
  | 68 => ⟨S50000x1, .i32⟩
  | 69 => ⟨S256, .f32⟩
  | 70 => ⟨S_, .f32⟩
  | 71 => ⟨S256, .f32⟩
  | 72 => ⟨S256, .f32⟩
  | 73 => ⟨S256x1, .f32⟩
  | 74 => ⟨S256x64, .f32⟩
  | 75 => ⟨S256x64, .f32⟩
  | 76 => ⟨S256x32, .f32⟩
  | 77 => ⟨S1x32, .f32⟩
  | 78 => ⟨S256x32, .f32⟩
  | 79 => ⟨S256x32, .f32⟩
  | 80 => ⟨S_, .f32⟩
  | 81 => ⟨S256x32, .f32⟩
  | 82 => ⟨S256x32, .f32⟩
  | 83 => ⟨S256x1, .f32⟩
  | 84 => ⟨S1x1, .f32⟩
  | 85 => ⟨S256x1, .f32⟩
  | 86 => ⟨S256x1, .f32⟩
  | _ => ⟨S50000x1, .f32⟩

abbrev hbmTy (i : Nat) : BufTy := match i / 128 with
  | 0 => hbmTy0_0 i
  | 1 => hbmTy0_1 i
  | _ => ⟨S50000x1, .f32⟩

abbrev bufTy : (tb : Table) → Fin (tcTables nBuf tb) → BufTy
  | .hbm, ⟨i, _⟩ => hbmTy i
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_cst : Ref sig .tc := ⟨.hbm, 71, rfl⟩
abbrev main_call0_v0 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_11 : Ref sig .tc := ⟨.hbm, 85, rfl⟩
abbrev main_v57 : Ref sig .tc := ⟨.hbm, 86, rfl⟩
abbrev main_v58 : Ref sig .tc := ⟨.hbm, 87, rfl⟩
abbrev main_c_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_15 : Ref sig .tc := ⟨.hbm, 103, rfl⟩
abbrev main_v71 : Ref sig .tc := ⟨.hbm, 104, rfl⟩
abbrev main_v72 : Ref sig .tc := ⟨.hbm, 105, rfl⟩
abbrev main_c_16 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_17 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_call1_cst : Ref sig .tc := ⟨.hbm, 128, rfl⟩
abbrev main_call1_v0 : Ref sig .tc := ⟨.hbm, 129, rfl⟩
abbrev main_v93 : Ref sig .tc := ⟨.hbm, 130, rfl⟩
abbrev main_v94 : Ref sig .tc := ⟨.hbm, 131, rfl⟩
abbrev main_cst_18 : Ref sig .tc := ⟨.hbm, 132, rfl⟩
abbrev main_v95 : Ref sig .tc := ⟨.hbm, 133, rfl⟩
abbrev main_cst_19 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_20 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_c_21 : Ref sig .tc := ⟨.hbm, 142, rfl⟩
abbrev main_v102 : Ref sig .tc := ⟨.hbm, 143, rfl⟩
abbrev main_v103 : Ref sig .tc := ⟨.hbm, 144, rfl⟩
abbrev main_c_22 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_c_23 : Ref sig .tc := ⟨.hbm, 151, rfl⟩
abbrev main_v109 : Ref sig .tc := ⟨.hbm, 152, rfl⟩
abbrev main_v110 : Ref sig .tc := ⟨.hbm, 153, rfl⟩
abbrev main_c_24 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_c_25 : Ref sig .tc := ⟨.hbm, 160, rfl⟩
abbrev main_v116 : Ref sig .tc := ⟨.hbm, 161, rfl⟩
abbrev main_v117 : Ref sig .tc := ⟨.hbm, 162, rfl⟩
abbrev main_c_26 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_27 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_call2_cst : Ref sig .tc := ⟨.hbm, 185, rfl⟩
abbrev main_call2_v0 : Ref sig .tc := ⟨.hbm, 186, rfl⟩
abbrev main_v138 : Ref sig .tc := ⟨.hbm, 187, rfl⟩
abbrev main_cst_28 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_cst_29 : Ref sig .tc := ⟨.hbm, 192, rfl⟩
abbrev main_v142 : Ref sig .tc := ⟨.hbm, 193, rfl⟩
abbrev main_cst_30 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_cst_31 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_call3_cst : Ref sig .tc := ⟨.hbm, 208, rfl⟩
abbrev main_call3_v0 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x64_0_1 : S600000x1.BroadcastsInDim S600000x64 (![0, 1] : Fin 2 → Fin S600000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  dot_S50000x1_S1x64_S50000x64_1_0_0_1_n_n_wf : DotDims.WF S50000x1 S1x64 S50000x64 [1] [0] [0] [1] [] []
  scatter_S50000_S600000x1_S600000_n_0_0_1_wf : ScatterDims.WF S50000 S600000x1 S600000 [] [0] [0] 1
  gather_S50000x64_S600000x1_S600000x64_1_0_n_n_0_1_164_wf : GatherDims.WF S50000x64 S600000x1 S600000x64 [1] [0] [] [0] [] 1 ![1, 64]
  gather_S50000_S600000x1_S600000_n_0_n_n_0_1_1_wf : GatherDims.WF S50000 S600000x1 S600000 [] [0] [] [0] [] 1 ![1]
  scatter_S50000x64_S600000x1_S600000x64_1_0_0_1_wf : ScatterDims.WF S50000x64 S600000x1 S600000x64 [1] [0] [0] 1
  dot_S50000x64_S64x128_S50000x128_1_0_0_1_n_n_wf : DotDims.WF S50000x64 S64x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x64_S50000x64_1_0_0_1_n_n_wf : DotDims.WF S50000x128 S128x64 S50000x64 [1] [0] [0] [1] [] []
  scatter_S256x64_S50000x1_S50000x64_1_0_0_1_wf : ScatterDims.WF S256x64 S50000x1 S50000x64 [1] [0] [0] 1
  scatter_S256_S50000x1_S50000_n_0_0_1_wf : ScatterDims.WF S256 S50000x1 S50000 [] [0] [0] 1
  dot_S256x64_S64x32_S256x32_1_0_0_1_n_n_wf : DotDims.WF S256x64 S64x32 S256x32 [1] [0] [0] [1] [] []
  dot_S256x32_S32x1_S256x1_1_0_0_1_n_n_wf : DotDims.WF S256x32 S32x1 S256x1 [1] [0] [0] [1] [] []

variable [Facts₀]

def dot_S50000x1_S1x64_S50000x64_1_0_0_1_n_n : DotDims S50000x1 S1x64 S50000x64 where
  lhsContracting := [1]
  rhsContracting := [0]
  lhsNonContracting := [0]
  rhsNonContracting := [1]
  lhsBatch := []
  rhsBatch := []
  wf := dot_S50000x1_S1x64_S50000x64_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x1_S256x1_1_0_0_1_n_n : DotDims S256x32 S32x1 S256x1 where
  lhsContracting := [1]
  rhsContracting := [0]
  lhsNonContracting := [0]
  rhsNonContracting := [1]
  lhsBatch := []
  rhsBatch := []
  wf := dot_S256x32_S32x1_S256x1_1_0_0_1_n_n_wf

class Facts : Prop extends Facts₀ where

variable [Facts]
-- ==== Proof.KRun.lean ====
/-
  The network's run with its result named.

  The run of the seven regions and the host operations between them ends, on every core, with every buffer that
  outlives a region holding the last boundary's contents: the fold of the host operations and of the regions'
  write-backs over the memory the program was started from. Read at the arguments this is the statement that they end
  as they began; read at the one result buffer it names the result: the last region's output array, as that fold
  leaves it. The steps are those of the run that ends at the arguments, with the result buffer read as well.
-/
import proofs.«162146_j29454885716582_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments as they
    were. -/
theorem run_named : θ_run defs (onTc (τ := τ) (main (F := F))) ⟨m, fun _ => 0, ρ⟩ (fun r => ∀ c : Dev nD,
      r.2.mem ((c.tc : Thread nD τ).loc main_v98) = W12 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v98 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.Named

end
-- ==== Proof.KWalk.lean ====
/-
  Buffers that a stretch of the program leaves alone.

  Between two boundaries of the program (a stretch of host operations, or a region) a buffer that no operation of the
  stretch writes, and that is not one of the region's arrays, holds what it held before. The edge lists, the
  per-node and per-edge normalisation factors computed once before the first region, and the arguments are read again
  several segments later: each is walked back, segment by segment, to the boundary where it was written, or, for an
  argument, to the memory the program was started from.
-/
import proofs.«162146_j29454885716582_1_alg».proof.Proof.Gen.KernelIdeal.Frame

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-! ## The arguments, at the boundary where each is read -/

theorem W1_arg0 : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W1_arg1 : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W2_arg2 : W2 m ρ c (Proc.devRef .tc main_arg2) = m ((c : Thread nD τ).loc main_arg2) :=
  ((W2_of_ne m ρ c main_arg2 (by decide))).trans ((StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))

theorem W4_arg3 : W4 m ρ c (Proc.devRef .tc main_arg3) = m ((c : Thread nD τ).loc main_arg3) :=
  ((W4_of_ne m ρ c main_arg3 (by decide))).trans (((StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W2_of_ne m ρ c main_arg3 (by decide))).trans ((StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))))

theorem W5_arg4 : W5 m ρ c (Proc.devRef .tc main_arg4) = m ((c : Thread nD τ).loc main_arg4) :=
  ((W5_of_ne m ρ c main_arg4 (by decide))).trans (((W4_of_ne m ρ c main_arg4 (by decide))).trans (((StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W2_of_ne m ρ c main_arg4 (by decide))).trans ((StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))))))

theorem W7_arg5 : W7 m ρ c (Proc.devRef .tc main_arg5) = m ((c : Thread nD τ).loc main_arg5) :=
  ((W7_of_ne m ρ c main_arg5 (by decide))).trans (((StableHlo.after_of_forall_not_mem (b := Proc.devRef .tc main_arg5) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W5_of_ne m ρ c main_arg5 (by decide))).trans (((W4_of_ne m ρ c main_arg5 (by decide))).trans (((StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W2_of_ne m ρ c main_arg5 (by decide))).trans ((StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))))))))

theorem W8_arg6 : W8 m ρ c (Proc.devRef .tc main_arg6) = m ((c : Thread nD τ).loc main_arg6) :=
  ((W8_of_ne m ρ c main_arg6 (by decide))).trans (((W7_of_ne m ρ c main_arg6 (by decide))).trans (((StableHlo.after_of_forall_not_mem (b := Proc.devRef .tc main_arg6) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W5_of_ne m ρ c main_arg6 (by decide))).trans (((W4_of_ne m ρ c main_arg6 (by decide))).trans (((StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W2_of_ne m ρ c main_arg6 (by decide))).trans ((StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))))))))

theorem W10_arg8 : W10 m ρ c (Proc.devRef .tc main_arg8) = m ((c : Thread nD τ).loc main_arg8) :=
  ((W10_of_ne m ρ c main_arg8 (by decide))).trans (((StableHlo.after_of_forall_not_mem (b := Proc.devRef .tc main_arg8) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W8_of_ne m ρ c main_arg8 (by decide))).trans (((W7_of_ne m ρ c main_arg8 (by decide))).trans (((StableHlo.after_of_forall_not_mem (b := Proc.devRef .tc main_arg8) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W5_of_ne m ρ c main_arg8 (by decide))).trans (((W4_of_ne m ρ c main_arg8 (by decide))).trans (((StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W2_of_ne m ρ c main_arg8 (by decide))).trans ((StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))))))))))

theorem W10_arg10 : W10 m ρ c (Proc.devRef .tc main_arg10) = m ((c : Thread nD τ).loc main_arg10) :=
  ((W10_of_ne m ρ c main_arg10 (by decide))).trans (((StableHlo.after_of_forall_not_mem (b := Proc.devRef .tc main_arg10) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W8_of_ne m ρ c main_arg10 (by decide))).trans (((W7_of_ne m ρ c main_arg10 (by decide))).trans (((StableHlo.after_of_forall_not_mem (b := Proc.devRef .tc main_arg10) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W5_of_ne m ρ c main_arg10 (by decide))).trans (((W4_of_ne m ρ c main_arg10 (by decide))).trans (((StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W2_of_ne m ρ c main_arg10 (by decide))).trans ((StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))))))))))

theorem W10_arg12 : W10 m ρ c (Proc.devRef .tc main_arg12) = m ((c : Thread nD τ).loc main_arg12) :=
  ((W10_of_ne m ρ c main_arg12 (by decide))).trans (((StableHlo.after_of_forall_not_mem (b := Proc.devRef .tc main_arg12) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W8_of_ne m ρ c main_arg12 (by decide))).trans (((W7_of_ne m ρ c main_arg12 (by decide))).trans (((StableHlo.after_of_forall_not_mem (b := Proc.devRef .tc main_arg12) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W5_of_ne m ρ c main_arg12 (by decide))).trans (((W4_of_ne m ρ c main_arg12 (by decide))).trans (((StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W2_of_ne m ρ c main_arg12 (by decide))).trans ((StableHlo.after_of_forall_not_mem (b := Proc.devRef .tc main_arg12) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))))))))))

theorem W11_arg7 : W11 m ρ c (Proc.devRef .tc main_arg7) = m ((c : Thread nD τ).loc main_arg7) :=
  ((StableHlo.after_of_forall_not_mem (b := Proc.devRef .tc main_arg7) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W10_of_ne m ρ c main_arg7 (by decide))).trans (((StableHlo.after_of_forall_not_mem (b := Proc.devRef .tc main_arg7) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W8_of_ne m ρ c main_arg7 (by decide))).trans (((W7_of_ne m ρ c main_arg7 (by decide))).trans (((StableHlo.after_of_forall_not_mem (b := Proc.devRef .tc main_arg7) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W5_of_ne m ρ c main_arg7 (by decide))).trans (((W4_of_ne m ρ c main_arg7 (by decide))).trans (((StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W2_of_ne m ρ c main_arg7 (by decide))).trans ((StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))))))))))))

theorem W11_arg9 : W11 m ρ c (Proc.devRef .tc main_arg9) = m ((c : Thread nD τ).loc main_arg9) :=
  ((StableHlo.after_of_forall_not_mem (b := Proc.devRef .tc main_arg9) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W10_of_ne m ρ c main_arg9 (by decide))).trans (((StableHlo.after_of_forall_not_mem (b := Proc.devRef .tc main_arg9) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W8_of_ne m ρ c main_arg9 (by decide))).trans (((W7_of_ne m ρ c main_arg9 (by decide))).trans (((StableHlo.after_of_forall_not_mem (b := Proc.devRef .tc main_arg9) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W5_of_ne m ρ c main_arg9 (by decide))).trans (((W4_of_ne m ρ c main_arg9 (by decide))).trans (((StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W2_of_ne m ρ c main_arg9 (by decide))).trans ((StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))))))))))))

/-! ## The edge lists and the normalisation factors, at the boundaries where they are read again -/

theorem W2_v1 : W2 m ρ c (Proc.devRef .tc main_v1) = W1 m ρ c (Proc.devRef .tc main_v1) :=
  (W2_of_ne m ρ c main_v1 (by decide))

theorem W5_v1 : W5 m ρ c (Proc.devRef .tc main_v1) = W1 m ρ c (Proc.devRef .tc main_v1) :=
  ((W5_of_ne m ρ c main_v1 (by decide))).trans (((W4_of_ne m ρ c main_v1 (by decide))).trans (((StableHlo.after_of_forall_not_mem (b := Proc.devRef .tc main_v1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans ((W2_of_ne m ρ c main_v1 (by decide)))))

theorem W8_v1 : W8 m ρ c (Proc.devRef .tc main_v1) = W1 m ρ c (Proc.devRef .tc main_v1) :=
  ((W8_of_ne m ρ c main_v1 (by decide))).trans (((W7_of_ne m ρ c main_v1 (by decide))).trans (((StableHlo.after_of_forall_not_mem (b := Proc.devRef .tc main_v1) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W5_of_ne m ρ c main_v1 (by decide))).trans (((W4_of_ne m ρ c main_v1 (by decide))).trans (((StableHlo.after_of_forall_not_mem (b := Proc.devRef .tc main_v1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans ((W2_of_ne m ρ c main_v1 (by decide))))))))

theorem W2_v3 : W2 m ρ c (Proc.devRef .tc main_v3) = W1 m ρ c (Proc.devRef .tc main_v3) :=
  (W2_of_ne m ρ c main_v3 (by decide))

theorem W5_v3 : W5 m ρ c (Proc.devRef .tc main_v3) = W1 m ρ c (Proc.devRef .tc main_v3) :=
  ((W5_of_ne m ρ c main_v3 (by decide))).trans (((W4_of_ne m ρ c main_v3 (by decide))).trans (((StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans ((W2_of_ne m ρ c main_v3 (by decide)))))

theorem W8_v3 : W8 m ρ c (Proc.devRef .tc main_v3) = W1 m ρ c (Proc.devRef .tc main_v3) :=
  ((W8_of_ne m ρ c main_v3 (by decide))).trans (((W7_of_ne m ρ c main_v3 (by decide))).trans (((StableHlo.after_of_forall_not_mem (b := Proc.devRef .tc main_v3) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W5_of_ne m ρ c main_v3 (by decide))).trans (((W4_of_ne m ρ c main_v3 (by decide))).trans (((StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans ((W2_of_ne m ρ c main_v3 (by decide))))))))

theorem W2_v11 : W2 m ρ c (Proc.devRef .tc main_v11) = W1 m ρ c (Proc.devRef .tc main_v11) :=
  (W2_of_ne m ρ c main_v11 (by decide))

theorem W5_v11 : W5 m ρ c (Proc.devRef .tc main_v11) = W1 m ρ c (Proc.devRef .tc main_v11) :=
  ((W5_of_ne m ρ c main_v11 (by decide))).trans (((W4_of_ne m ρ c main_v11 (by decide))).trans (((StableHlo.after_of_forall_not_mem (b := Proc.devRef .tc main_v11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans ((W2_of_ne m ρ c main_v11 (by decide)))))

theorem W8_v11 : W8 m ρ c (Proc.devRef .tc main_v11) = W1 m ρ c (Proc.devRef .tc main_v11) :=
  ((W8_of_ne m ρ c main_v11 (by decide))).trans (((W7_of_ne m ρ c main_v11 (by decide))).trans (((StableHlo.after_of_forall_not_mem (b := Proc.devRef .tc main_v11) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W5_of_ne m ρ c main_v11 (by decide))).trans (((W4_of_ne m ρ c main_v11 (by decide))).trans (((StableHlo.after_of_forall_not_mem (b := Proc.devRef .tc main_v11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans ((W2_of_ne m ρ c main_v11 (by decide))))))))

theorem W2_v26 : W2 m ρ c (Proc.devRef .tc main_v26) = W1 m ρ c (Proc.devRef .tc main_v26) :=
  (W2_of_ne m ρ c main_v26 (by decide))

theorem W5_v26 : W5 m ρ c (Proc.devRef .tc main_v26) = W1 m ρ c (Proc.devRef .tc main_v26) :=
  ((W5_of_ne m ρ c main_v26 (by decide))).trans (((W4_of_ne m ρ c main_v26 (by decide))).trans (((StableHlo.after_of_forall_not_mem (b := Proc.devRef .tc main_v26) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans ((W2_of_ne m ρ c main_v26 (by decide)))))

theorem W8_v26 : W8 m ρ c (Proc.devRef .tc main_v26) = W1 m ρ c (Proc.devRef .tc main_v26) :=
  ((W8_of_ne m ρ c main_v26 (by decide))).trans (((W7_of_ne m ρ c main_v26 (by decide))).trans (((StableHlo.after_of_forall_not_mem (b := Proc.devRef .tc main_v26) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (((W5_of_ne m ρ c main_v26 (by decide))).trans (((W4_of_ne m ρ c main_v26 (by decide))).trans (((StableHlo.after_of_forall_not_mem (b := Proc.devRef .tc main_v26) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans ((W2_of_ne m ρ c main_v26 (by decide))))))))

end Cert.KernelIdeal.Walk

end
-- ==== Proof.LibBroadcastLayout.lean ====
/-
  `broadcast_in_dim` of small shapes, read at an entry.

  A vector laid as a column [a] → [a,1] or as a row [a] → [1,a], a column [a,1] or a row [1,b] repeated to [a,b], and a
  scalar repeated to any shape: each result entry is the operand's entry at the matching coordinates, the unit axes
  read at 0.  The column layout of a vector is therefore the same array as its reshape to [a,1], and the row layout the
  same as its reshape to [1,a].
-/
import Idealize.ShloMosaic.Lib.ValueIdx
import Idealize.ShloMosaic.Lib.ValueLayout
import Idealize.ShloMosaic.Lib.Pipeline.Value

noncomputable section

namespace Idealize.ShloMosaic.BroadcastLayout

open Idealize.ShloMosaic Idealize.ShloMosaic.ValueIdx

variable {α : Type}

/-- A scalar repeated to any shape reads the scalar at every index. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun ax => ax.elim0)

/-- A vector laid as a column: [a] → [a,1] along axis 0 reads, at (p, u), the operand at p. -/
theorem column_apply {a : ℕ} (dims : Fin (⟨1, ![a]⟩ : Shape).rank → Fin (⟨2, ![a, 1]⟩ : Shape).rank)
    (hd : dims ⟨0, Nat.one_pos⟩ = ⟨0, Nat.two_pos⟩)
    (h : (⟨1, ![a]⟩ : Shape).BroadcastsInDim ⟨2, ![a, 1]⟩ dims) (x : (⟨1, ![a]⟩ : Shape).Idx → α) (p : Fin a) (u : Fin 1) :
    broadcastInDim ⟨2, ![a, 1]⟩ dims h x (ix2 p u) = x (ix1 p) :=
  broadcastInDim_apply dims h x (ix2 p u) (ix1 p) (fun ax => by
    match ax with
    | ⟨0, _⟩ =>
      rw [hd]
      show p.val = if a = 1 then 0 else p.val
      split
      · have := p.isLt; omega
      · rfl)

/-- A vector laid as a row: [a] → [1,a] along axis 1 reads, at (u, i), the operand at i. -/
theorem row_apply {a : ℕ} (dims : Fin (⟨1, ![a]⟩ : Shape).rank → Fin (⟨2, ![1, a]⟩ : Shape).rank)
    (hd : dims ⟨0, Nat.one_pos⟩ = ⟨1, Nat.one_lt_two⟩)
    (h : (⟨1, ![a]⟩ : Shape).BroadcastsInDim ⟨2, ![1, a]⟩ dims) (x : (⟨1, ![a]⟩ : Shape).Idx → α) (u : Fin 1) (i : Fin a) :
    broadcastInDim ⟨2, ![1, a]⟩ dims h x (ix2 u i) = x (ix1 i) :=
  broadcastInDim_apply dims h x (ix2 u i) (ix1 i) (fun ax => by
    match ax with
    | ⟨0, _⟩ =>
      rw [hd]
      show i.val = if a = 1 then 0 else i.val
      split
      · have := i.isLt; omega
      · rfl)

/-- A column repeated along the second axis: [a,1] → [a,b] reads, at (p, c), the operand at (p, 0). -/
theorem column_repeat_apply {a b : ℕ} (dims : Fin (⟨2, ![a, 1]⟩ : Shape).rank → Fin (⟨2, ![a, b]⟩ : Shape).rank)
    (hd0 : dims ⟨0, Nat.two_pos⟩ = ⟨0, Nat.two_pos⟩)
    (h : (⟨2, ![a, 1]⟩ : Shape).BroadcastsInDim ⟨2, ![a, b]⟩ dims) (v : (⟨2, ![a, 1]⟩ : Shape).Idx → α) (p : Fin a) (c : Fin b) :
    broadcastInDim ⟨2, ![a, b]⟩ dims h v (ix2 p c) = v (ix2 p (0 : Fin 1)) :=
  broadcastInDim_apply dims h v (ix2 p c) (ix2 p (0 : Fin 1)) (fun ax => by
    match ax with
    | ⟨0, _⟩ =>
      rw [hd0]
      show p.val = if a = 1 then 0 else p.val
      split
      · have := p.isLt; omega
      · rfl
    | ⟨1, _⟩ =>
      show 0 = if (1 : ℕ) = 1 then 0 else _
      rw [if_pos rfl])

/-- A row repeated along the first axis: [1,b] → [a,b] reads, at (p, c), the operand at (0, c). -/
theorem row_repeat_apply {a b : ℕ} (dims : Fin (⟨2, ![1, b]⟩ : Shape).rank → Fin (⟨2, ![a, b]⟩ : Shape).rank)
    (hd1 : dims ⟨1, Nat.one_lt_two⟩ = ⟨1, Nat.one_lt_two⟩)
    (h : (⟨2, ![1, b]⟩ : Shape).BroadcastsInDim ⟨2, ![a, b]⟩ dims) (v : (⟨2, ![1, b]⟩ : Shape).Idx → α) (p : Fin a) (c : Fin b) :
    broadcastInDim ⟨2, ![a, b]⟩ dims h v (ix2 p c) = v (ix2 (0 : Fin 1) c) :=
  broadcastInDim_apply dims h v (ix2 p c) (ix2 (0 : Fin 1) c) (fun ax => by
    match ax with
    | ⟨0, _⟩ =>
      show 0 = if (1 : ℕ) = 1 then 0 else _
      rw [if_pos rfl]
    | ⟨1, _⟩ =>
      rw [hd1]
      show c.val = if b = 1 then 0 else c.val
      split
      · have := c.isLt; omega
      · rfl)

/-- The column layout of a vector is its reshape to [a,1]. -/
theorem column_eq_shapeCast {a : ℕ} (dims : Fin (⟨1, ![a]⟩ : Shape).rank → Fin (⟨2, ![a, 1]⟩ : Shape).rank)
    (hd : dims ⟨0, Nat.one_pos⟩ = ⟨0, Nat.two_pos⟩)
    (h : (⟨1, ![a]⟩ : Shape).BroadcastsInDim ⟨2, ![a, 1]⟩ dims) (h' : (⟨1, ![a]⟩ : Shape).ShapeCasts ⟨2, ![a, 1]⟩)
    (x : (⟨1, ![a]⟩ : Shape).Idx → α) :
    broadcastInDim ⟨2, ![a, 1]⟩ dims h x = shapeCast ⟨2, ![a, 1]⟩ x h' := by
  funext j
  obtain ⟨p, u, rfl⟩ : ∃ (p : Fin a) (u : Fin 1), j = ix2 p u := ⟨j 0, j 1, eq_ix2 j⟩
  rw [column_apply dims hd h x p u]
  refine (shapeCast_apply x h' (ix2 p u) (ix1 p) ?_).symm
  have hu : u.val = 0 := by omega
  rw [Shape.rowMajor_val_two, Shape.rowMajor_val_one]
  show p.val = p.val * 1 + u.val
  omega

/-- The row layout of a vector is its reshape to [1,a]. -/
theorem row_eq_shapeCast {a : ℕ} (dims : Fin (⟨1, ![a]⟩ : Shape).rank → Fin (⟨2, ![1, a]⟩ : Shape).rank)
    (hd : dims ⟨0, Nat.one_pos⟩ = ⟨1, Nat.one_lt_two⟩)
    (h : (⟨1, ![a]⟩ : Shape).BroadcastsInDim ⟨2, ![1, a]⟩ dims) (h' : (⟨1, ![a]⟩ : Shape).ShapeCasts ⟨2, ![1, a]⟩)
    (x : (⟨1, ![a]⟩ : Shape).Idx → α) :
    broadcastInDim ⟨2, ![1, a]⟩ dims h x = shapeCast ⟨2, ![1, a]⟩ x h' := by
  funext j
  obtain ⟨u, i, rfl⟩ : ∃ (u : Fin 1) (i : Fin a), j = ix2 u i := ⟨j 0, j 1, eq_ix2 j⟩
  rw [row_apply dims hd h x u i, shapeCast_a_1a_apply]

end Idealize.ShloMosaic.BroadcastLayout

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.LibPlainDot.lean ====
/-
  The host's plain matrix product on the extended reals, read at one entry.

  `dot_general` of an `m × k` by a `k × n` array (rows against columns, no batch axis) holds at entry `(a, b)` the sum
  over the contracted position `c` of `A[a,c] · B[c,b]`, whatever the precision and schedule keys: the very sum the matrix
  unit's product into the zero array holds there. The contraction's one-axis index set is re-indexed by its coordinate
  and the operands' indices are named by their coordinates, exactly as for the matrix unit's product.
-/
import proofs.«162146_j29454885716582_1_alg».proof.Proof.LibPlainMatmul

noncomputable section

open scoped BigOperators

namespace Idealize.ShloMosaic.PlainDot

open Idealize.ShloMosaic Idealize.ShloMosaic.ValueIdx Idealize.ShloMosaic.PlainMatmul

variable {m k n : Nat}

/-- **The host's plain product at an entry**: `∑ c, A[a,c] · B[c,b]`, at the ideal values, whatever the operands'
    formats, the precision key and the schedule key. -/
theorem dotGeneral_apply_entry {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

/-- The matrix unit's product into the zero array and the host's product of the same operands are one array. -/
theorem matmul_zero_eq_dotGeneral {φ₁ φ₂ : FTy} (prec prec' : Option ContractPrecision) (sched : HostSchedule)
    (A : FVec Ideal ⟨2, ![m, k]⟩ φ₁) (B : FVec Ideal ⟨2, ![k, n]⟩ φ₂) :
    FloatOps.matmul (DotDims.plain m k n) prec A B (constant ⟨2, ![m, n]⟩ .f32 0x00000000#32)
      = FloatOps.dotGeneral (DotDims.plain m k n) prec' sched A B := by
  funext i
  obtain ⟨a, b, rfl⟩ : ∃ (a : Fin m) (b : Fin n), i = ix2 a b := ⟨i 0, i 1, eq_ix2 i⟩
  rw [matmul_zero_apply, dotGeneral_apply_entry]

end Idealize.ShloMosaic.PlainDot

end
-- ==== Proof.LibRowTiles.lean ====
/-
  A row block of a matrix product, on the extended reals; and the product of operands whose float format was changed.

  Let `X` be an `M × K` array and `W` a `K × N` array. If the `R × K` array `x0` agrees, on its row `p`, with
  row `a` of `X`, and the `K × N` array `x1` agrees with `W` on column `q`, then the matrix unit's product of `x0`
  by `x1` into the zero array holds at `(p, q)` what the host's product of `X` by `W` holds at `(a, q)`: both are
  `∑ c, X[a,c] · W[c,q]`, one sum over the contracted position, in the same order; no term is moved, so nothing
  is asked of the entries (they may be infinite). Tiling a product by blocks of rows therefore changes nothing.

  On the extended reals a change of float format is the identity on every entry, so the host's product of two
  arrays narrowed to another format is the host's product of the arrays themselves (`dotGeneral_truncf`).
-/
import proofs.«162146_j29454885716582_1_alg».proof.Proof.LibPlainDot

noncomputable section

open scoped BigOperators

namespace Idealize.ShloMosaic.RowTiles

open Idealize.ShloMosaic Idealize.ShloMosaic.ValueIdx Idealize.ShloMosaic.PlainMatmul Idealize.ShloMosaic.PlainDot

variable {M K N R : Nat}

/-- **One entry of a row block of the product.** Row `p` of the block is row `a` of the whole left factor; the right
    factor is whole. -/
theorem tile_entry {φ₁ φ₂ : FTy} (prec prec' : Option ContractPrecision) (sched : HostSchedule)
    (X : FVec Ideal ⟨2, ![M, K]⟩ φ₁) (W : FVec Ideal ⟨2, ![K, N]⟩ φ₂)
    (x0 : FVec Ideal ⟨2, ![R, K]⟩ φ₁) (x1 : FVec Ideal ⟨2, ![K, N]⟩ φ₂) (p : Fin R) (q : Fin N) (a : Fin M)
    (h0 : ∀ c : Fin K, x0 (ix2 p c) = X (ix2 a c)) (h1 : ∀ c : Fin K, x1 (ix2 c q) = W (ix2 c q)) :
    FloatOps.matmul (DotDims.plain R K N) prec x0 x1 (constant ⟨2, ![R, N]⟩ .f32 0x00000000#32) (ix2 p q)
      = FloatOps.dotGeneral (DotDims.plain M K N) prec' sched X W (ix2 a q) := by
  rw [matmul_zero_apply, dotGeneral_apply_entry]
  exact Finset.sum_congr rfl fun c _ => by rw [h0 c, h1 c]

/-- **The host's product does not see its operands' format**: narrowing both operands first changes no entry. -/
theorem dotGeneral_truncf (prec prec' : Option ContractPrecision) (sched : HostSchedule)
    (X : FVec Ideal ⟨2, ![M, K]⟩ .f32) (W : FVec Ideal ⟨2, ![K, N]⟩ .f32)
    (h : FTy.bits .bf16 < FTy.bits .f32) :
    FloatOps.dotGeneral (DotDims.plain M K N) prec sched (truncf .bf16 X h) (truncf .bf16 W h)
      = FloatOps.dotGeneral (DotDims.plain M K N) prec' sched X W := by
  funext i
  obtain ⟨a, b, rfl⟩ : ∃ (a : Fin M) (b : Fin N), i = ix2 a b := ⟨i 0, i 1, eq_ix2 i⟩
  rw [dotGeneral_apply_entry, dotGeneral_apply_entry]
  rfl

end Idealize.ShloMosaic.RowTiles

end
-- ==== Proof.Region0.lean ====
/-
  The first projection, block by block.

  The first projection region multiplies the node features, fifty thousand rows in ten blocks of five thousand, by the
  whole first weight matrix, one block of rows per grid point, each product accumulated into a zero block and written
  back to the block's rows of the result. A row of a block is a row of the whole left factor and the right factor is
  whole at every point, so the ten blocks together are the rows of the one product of the whole arrays: the array the
  region leaves is the host's product of the arrays it found.
-/
import proofs.«162146_j29454885716582_1_alg».proof.Proof.Gen.KernelIdeal.Frame
import proofs.«162146_j29454885716582_1_alg».proof.Proof.LibRowTiles
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace Projection0

/-- The origin of a two-axis array. -/
theorem origin : (![0, 0] : Fin 2 → Nat) = fun _ => 0 := funext fun a => by fin_cases a <;> rfl

/-- The whole product of the arrays the region reads. -/
abbrev product (x : FVec Ideal S50000x1 .f32) (w : FVec Ideal S1x64 .f32) : FVec Ideal S50000x64 .f32 :=
  FloatOps.dotGeneral (φ₁ := .f32) (φ₂ := .f32) (DotDims.plain 50000 1 64) none .single x w

/-- Where the three windows sit at grid point t: the left factor's and the result's blocks are the t-th block of rows,
    the right factor's is the whole array. -/
theorem blocks : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of what a point computes: when row p of the left block is row a of the whole left factor and the right
    block is the whole right factor, entry (p, q) of the block's product is entry (a, q) of the whole product. -/
theorem payload_entry (X : FVec Ideal S50000x1 .f32) (W : FVec Ideal S1x64 .f32)
    (x0 : Vec Ideal S5000x1 .f32) (x1 : Vec Ideal S1x64 .f32) (p : Fin 5000) (q : Fin 64) (a : Fin 50000)
    (h0 : ∀ k : Fin 1, x0 (ix2 p k) = X (ix2 a k)) (h1 : ∀ k : Fin 1, x1 (ix2 k q) = W (ix2 k q)) :
    k0_pay1 x0 x1 (ix2 p q) = product X W (ix2 a q) := by
  unfold k0_pay1
  exact RowTiles.tile_entry (φ₁ := .f32) (φ₂ := .f32) none none .single X W x0 x1 p q a h0 h1

/-- What point t writes back is block t of the whole product. -/
theorem flushed (c : Dev nD) (t : Fin cfg0.N) :
    (dat0 V c).flushed 2 t
      = ((cfg0.win 2).blk t).view.read (Elt Ideal) (product (V c main_arg0) (V c main_arg1)) := by
  show (cfg0.win 2).cut (grid0.coords t) ((dat0 V c).after 2 t) = _
  rw [after0_2]
  unfold out0_2
  rw [View.canon_unit_zero origin]
  simp only [View.ld_unit_zero (S := S5000x1) origin, View.ld_unit_zero (S := S1x64) origin]
  funext j
  obtain ⟨p, q, rfl⟩ : ∃ (p : Fin 5000) (q : Fin 64), j = ix2 p q := ⟨j 0, j 1, eq_ix2 j⟩
  obtain ⟨e00, e01, e10, e11, e20, e21⟩ := blocks t
  have ht : t.val < 10 := lt_of_lt_of_eq t.isLt N_0
  have ha : t.val * 5000 + p.val < 50000 := by have := p.isLt; omega
  have hemb : ((cfg0.win 2).blk t).view.emb (ix2 p q) = ix2 (⟨t.val * 5000 + p.val, ha⟩ : Fin 50000) q := by
    funext a; apply Fin.ext
    match a with
    | ⟨0, _⟩ => show win0_2.index t (0 : Fin 2) * 5000 + 1 * p.val = t.val * 5000 + p.val; rw [e20]; omega
    | ⟨1, _⟩ => show win0_2.index t (1 : Fin 2) * 64 + 1 * q.val = q.val; rw [e21]; omega
  show k0_pay1 (iblk0 V c 0 t) (iblk0 V c 1 t) (ix2 p q)
    = product (V c main_arg0) (V c main_arg1) (((cfg0.win 2).blk t).view.emb (ix2 p q))
  refine (payload_entry (V c main_arg0) (V c main_arg1) (iblk0 V c 0 t) (iblk0 V c 1 t) p q ⟨_, ha⟩
    (fun k => ?_) (fun k => ?_)).trans (congrArg _ hemb.symm)
  · show V c main_arg0 (((cfg0.win 0).blk t).view.emb (ix2 p k))
      = V c main_arg0 (ix2 (⟨t.val * 5000 + p.val, ha⟩ : Fin 50000) k)
    refine congrArg _ (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 1 + 1 * k.val = k.val; rw [e01]; omega
  · show V c main_arg1 (((cfg0.win 1).blk t).view.emb (ix2 k q)) = V c main_arg1 (ix2 k q)
    refine congrArg _ (funext fun a => Fin.ext ?_)
    match a with
    | ⟨0, _⟩ => show win0_1.index t (0 : Fin 2) * 1 + 1 * k.val = k.val; rw [e10]; omega
    | ⟨1, _⟩ => show win0_1.index t (1 : Fin 2) * 64 + 1 * q.val = q.val; rw [e11]; omega

/-- An index of the result is in point t's block iff each coordinate is in the block's range on its axis. -/
theorem mem_blk (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v27).slice (win0_2.rect t)).set ↔ _
  rw [View.set_slice_whole, Rect.mem_set_unit]
  exact Iff.rfl

/-- Every entry of the result is written by some point: row r by point r / 5000. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, lt_of_lt_of_eq (by omega : (i 0).val / 5000 < 10) N_0.symm⟩, rfl⟩
  obtain ⟨-, -, -, -, e20, e21⟩ := blocks t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    rw [e20, ht]; omega
  | ⟨1, _⟩ =>
    show win0_2.index t (1 : Fin 2) * 64 ≤ (i 1).val ∧ (i 1).val < win0_2.index t (1 : Fin 2) * 64 + 64
    rw [e21]; omega

end Projection0

/-- The array the first projection region leaves is the host's product of the arrays it found. -/
theorem final0 (c : Dev nD) : (dat0 (F := Ideal) V c).arrAt 2 cfg0.N = (FloatOps.dotGeneral (φ₁ := .f32) (φ₂ := .f32) (DotDims.plain 50000 1 64) none .single (V c main_arg0) (V c main_arg1) : FVec Ideal S50000x64 .f32) :=
  (dat0 V c).arrAt_eq_of_cover 2 (Projection0.product (V c main_arg0) (V c main_arg1))
    (fun t _ => Projection0.flushed V c t) Projection0.cover

end Cert.KernelIdeal.Regions

end
-- ==== Proof.RegionSharedB.lean ====
/-
  The combine step read at one entry.

  Each combine region computes, entry by entry, the maximum of (aggregate + self term + bias) and zero, the bias a
  single row repeated down the rows.  Two readings of that formula are recorded here over arbitrary extents: the
  kernel body's own spelling (same-shape casts, a row broadcast, a splat zero) read at an entry of a block, and the
  host's spelling (two broadcast_in_dim operations) read at an entry of the whole array.  Both are the same
  expression of the operands' entries, the bias read in its only row.
-/
import proofs.«162146_j29454885716582_1_alg».proof.Proof.LibBroadcastLayout
import Idealize.ShloMosaic.Lib.Pipeline.Value
import Idealize.ShloMosaic.Lib.ValueIdx
import Idealize.ShloMosaic.PureOps.Ideal.Laws

noncomputable section

namespace Cert.KernelIdeal.Regions

open Idealize.ShloMosaic Idealize.ShloMosaic.ValueIdx

/-- The two zero offsets of a whole-block access, as a constant function. -/
theorem offsets_zero2 : (![0, 0] : Fin 2 → Nat) = fun _ => 0 := funext fun a => by fin_cases a <;> rfl

/-- The body's formula at entry (p, q) of a block: the casts to the same shape change nothing, the row broadcast reads
    the bias in its only row, the splat reads zero. -/
theorem combine_body_apply {a b : ℕ} (x0 x1 : FVec Ideal ⟨2, ![a, b]⟩ .f32) (x2 : FVec Ideal ⟨2, ![1, b]⟩ .f32)
    (hc : (⟨2, ![a, b]⟩ : Shape).ShapeCasts ⟨2, ![a, b]⟩) (hc' : (⟨2, ![1, b]⟩ : Shape).ShapeCasts ⟨2, ![1, b]⟩)
    (hb : (⟨2, ![1, b]⟩ : Shape).Broadcasts ⟨2, ![a, b]⟩) (p : Fin a) (q : Fin b) :
    (maximumf (addf (addf (shapeCast ⟨2, ![a, b]⟩ x0 hc) (shapeCast ⟨2, ![a, b]⟩ x1 hc))
        (broadcastTo ⟨2, ![a, b]⟩ (shapeCast ⟨2, ![1, b]⟩ x2 hc') hb))
      (broadcast ⟨2, ![a, b]⟩ (Scalar.ofBits .f32 0x00000000#32)) : FVec Ideal ⟨2, ![a, b]⟩ .f32) (ix2 p q)
      = max (x0 (ix2 p q) + x1 (ix2 p q) + x2 (ix2 (0 : Fin 1) q)) (Ideal.ofBits .f32 0x00000000#32) := by
  rw [shapeCast_self, shapeCast_self, shapeCast_self]
  show max (x0 (ix2 p q) + x1 (ix2 p q) + broadcastTo ⟨2, ![a, b]⟩ x2 hb (ix2 p q)) _ = _
  rw [broadcastTo_apply x2 hb (ix2 p q) (ix2 (0 : Fin 1) q) (fun ax => by
    match ax with
    | ⟨0, _⟩ =>
      show 0 = if (1 : ℕ) = 1 then 0 else _
      rw [if_pos rfl]
    | ⟨1, _⟩ =>
      show q.val = if b = 1 then 0 else q.val
      split
      · have := q.isLt; omega
      · rfl)]
  rfl

/-- The host's formula at entry (r, q) of the whole array: the bias row laid along the second axis reads its only row,
    the scalar zero repeated everywhere reads zero. -/
theorem combine_host_apply {n b : ℕ} (h1 : (⟨2, ![1, b]⟩ : Shape).BroadcastsInDim ⟨2, ![n, b]⟩ ![0, 1])
    (h0 : (⟨0, ![]⟩ : Shape).BroadcastsInDim ⟨2, ![n, b]⟩ ![])
    (A S : FVec Ideal ⟨2, ![n, b]⟩ .f32) (B : FVec Ideal ⟨2, ![1, b]⟩ .f32) (r : Fin n) (q : Fin b) :
    (maximumf (addf (addf A S) (broadcastInDim ⟨2, ![n, b]⟩ ![0, 1] h1 B))
      (broadcastInDim ⟨2, ![n, b]⟩ ![] h0 (constant (F := Ideal) ⟨0, ![]⟩ .f32 0x00000000#32)) : FVec Ideal ⟨2, ![n, b]⟩ .f32) (ix2 r q)
      = max (A (ix2 r q) + S (ix2 r q) + B (ix2 (0 : Fin 1) q)) (Ideal.ofBits .f32 0x00000000#32) := by
  show max (A (ix2 r q) + S (ix2 r q) + broadcastInDim ⟨2, ![n, b]⟩ ![0, 1] h1 B (ix2 r q))
      (broadcastInDim ⟨2, ![n, b]⟩ ![] h0 (constant (F := Ideal) ⟨0, ![]⟩ .f32 0x00000000#32) (ix2 r q)) = _
  rw [BroadcastLayout.row_repeat_apply ![0, 1] rfl h1 B r q, BroadcastLayout.scalar_apply ![] h0 _ (ix2 r q)]
  rfl

end Cert.KernelIdeal.Regions

end
-- ==== Proof.Region1.lean ====
/-
  The first combine step, block by block.

  The region walks fifty thousand rows in ten blocks of five thousand.  At each grid point it adds the block of the
  aggregate, the same block of the self term and the bias row (whole at every point, repeated down the rows), takes the
  maximum with zero entry by entry, and writes the block back to the same rows of the result.  An entry of a block is
  the entry of the whole array at row (block index × 5000 + row inside the block), so what each point writes is its block
  of one function of the whole arrays, and the ten blocks cover every row: the array the region leaves is that function,
  which is the host's expression max(aggregate + self + bias laid along the rows, 0) of the arrays the region found.
-/
import proofs.«162146_j29454885716582_1_alg».proof.Proof.Gen.KernelIdeal.Frame
import proofs.«162146_j29454885716582_1_alg».proof.Proof.RegionSharedB
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- What the result array holds after the region, as one function of the arrays the region reads. -/
abbrev combined1 (h1 : S1x64.BroadcastsInDim S50000x64 ![0, 1]) (h0 : S_.BroadcastsInDim S50000x64 ![])
    (a s : FVec Ideal S50000x64 .f32) (b : FVec Ideal S1x64 .f32) : FVec Ideal S50000x64 .f32 :=
  maximumf (addf (addf a s) (broadcastInDim S50000x64 ![0, 1] h1 b)) (broadcastInDim S50000x64 ![] h0 (constant S_ .f32 0x00000000#32))

/-- Where the four windows sit at grid point t: the aggregate's, the self term's and the result's blocks are the t-th
    block of rows, the bias's is the whole row. -/
theorem blocks1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's result at entry (p, q) of a block, from the three loaded blocks. -/
theorem body1_apply (x0 x1 : Vec Ideal S5000x64 .f32) (x2 : Vec Ideal S1x64 .f32) (p : Fin 5000) (q : Fin 64) :
    k1_pay1 x0 x1 x2 (ix2 p q)
      = max (x0 (ix2 p q) + x1 (ix2 p q) + x2 (ix2 (0 : Fin 1) q)) (Ideal.ofBits .f32 0x00000000#32) := by
  unfold k1_pay1
  exact combine_body_apply x0 x1 x2 _ _ _ p q

/-- Entry (p, q) of the aggregate's block at point t is the aggregate at row t × 5000 + p. -/
theorem block1_agg_apply (c : Dev nD) (t : Fin cfg1.N) (p : Fin 5000) (q : Fin 64) (r : Fin 50000)
    (hr : r.val = t.val * 5000 + p.val) :
    (iblk1 V c 0 t : Vec Ideal S5000x64 .f32) (ix2 p q) = (V c main_v40 : FVec Ideal S50000x64 .f32) (ix2 r q) := by
  obtain ⟨e0, e1, -⟩ := blocks1 t
  unfold iblk1
  rw [View.read_apply]
  show V c main_v40 _ = V c main_v40 _
  congr 1
  funext a
  apply Fin.ext
  match a with
  | ⟨0, _⟩ => show win1_0.index t (0 : Fin 2) * 5000 + 1 * p.val = r.val; omega
  | ⟨1, _⟩ => show win1_0.index t (1 : Fin 2) * 64 + 1 * q.val = q.val; omega

/-- Entry (p, q) of the self term's block at point t is the self term at row t × 5000 + p. -/
theorem block1_self_apply (c : Dev nD) (t : Fin cfg1.N) (p : Fin 5000) (q : Fin 64) (r : Fin 50000)
    (hr : r.val = t.val * 5000 + p.val) :
    (iblk1 V c 1 t : Vec Ideal S5000x64 .f32) (ix2 p q) = (V c main_v43 : FVec Ideal S50000x64 .f32) (ix2 r q) := by
  obtain ⟨-, -, e0, e1, -⟩ := blocks1 t
  unfold iblk1
  rw [View.read_apply]
  show V c main_v43 _ = V c main_v43 _
  congr 1
  funext a
  apply Fin.ext
  match a with
  | ⟨0, _⟩ => show win1_1.index t (0 : Fin 2) * 5000 + 1 * p.val = r.val; omega
  | ⟨1, _⟩ => show win1_1.index t (1 : Fin 2) * 64 + 1 * q.val = q.val; omega

/-- The bias's block at every point is the whole bias row. -/
theorem block1_bias_apply (c : Dev nD) (t : Fin cfg1.N) (u : Fin 1) (q : Fin 64) :
    (iblk1 V c 2 t : Vec Ideal S1x64 .f32) (ix2 u q) = (V c main_v44 : FVec Ideal S1x64 .f32) (ix2 u q) := by
  obtain ⟨-, -, -, -, e0, e1, -⟩ := blocks1 t
  unfold iblk1
  rw [View.read_apply]
  show V c main_v44 _ = V c main_v44 _
  congr 1
  funext a
  apply Fin.ext
  match a with
  | ⟨0, _⟩ => show win1_2.index t (0 : Fin 2) * 1 + 1 * u.val = u.val; omega
  | ⟨1, _⟩ => show win1_2.index t (1 : Fin 2) * 64 + 1 * q.val = q.val; omega

/-- What point t writes back is block t of the function of the whole arrays. -/
theorem flushed1 (h1 : S1x64.BroadcastsInDim S50000x64 ![0, 1]) (h0 : S_.BroadcastsInDim S50000x64 ![]) (c : Dev nD)
    (t : Fin cfg1.N) :
    (dat1 V c).flushed 3 t
      = ((cfg1.win 3).blk t).view.read (Elt Ideal) (combined1 h1 h0 (V c main_v40) (V c main_v43) (V c main_v44)) := by
  show (cfg1.win 3).cut (grid1.coords t) ((dat1 V c).after 3 t) = _
  rw [after1_3]
  unfold out1_3
  rw [View.canon_unit_zero offsets_zero2]
  simp only [View.ld_unit_zero (S := S5000x64) offsets_zero2, View.ld_unit_zero (S := S1x64) offsets_zero2]
  funext j
  obtain ⟨p, q, rfl⟩ : ∃ (p : Fin 5000) (q : Fin 64), j = ix2 p q := ⟨j 0, j 1, eq_ix2 j⟩
  have ht : t.val < 10 := lt_of_lt_of_eq t.isLt N_1
  have hp : p.val < 5000 := p.isLt
  have hlt : t.val * 5000 + p.val < 50000 := by omega
  obtain ⟨-, -, -, -, -, -, e0, e1⟩ := blocks1 t
  have hemb : (((cfg1.win 3).blk t).view.emb (ix2 p q) : S50000x64.Idx)
      = ix2 (⟨t.val * 5000 + p.val, hlt⟩ : Fin 50000) q := by
    funext a
    apply Fin.ext
    match a with
    | ⟨0, _⟩ => show win1_3.index t (0 : Fin 2) * 5000 + 1 * p.val = t.val * 5000 + p.val; omega
    | ⟨1, _⟩ => show win1_3.index t (1 : Fin 2) * 64 + 1 * q.val = q.val; omega
  show k1_pay1 (iblk1 V c 0 t) (iblk1 V c 1 t) (iblk1 V c 2 t) (ix2 p q)
    = combined1 h1 h0 (V c main_v40) (V c main_v43) (V c main_v44) (((cfg1.win 3).blk t).view.emb (ix2 p q))
  rw [hemb]
  refine (body1_apply _ _ _ p q).trans ?_
  rw [block1_agg_apply V c t p q ⟨t.val * 5000 + p.val, hlt⟩ rfl, block1_self_apply V c t p q ⟨t.val * 5000 + p.val, hlt⟩ rfl,
    block1_bias_apply V c t 0 q]
  exact (combine_host_apply h1 h0 _ _ _ _ q).symm

/-- An index of the result is in point t's block iff each coordinate is in the block's range on its axis. -/
theorem mem_block1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- Every row of the result is in some point's block: row r in the block of point r / 5000. -/
theorem cover1 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : (i 0).val / 5000 < cfg1.N := lt_of_lt_of_eq (by omega : (i 0).val / 5000 < 10) N_1.symm
  refine ⟨⟨(i 0).val / 5000, hN⟩, flush1_3 _, ?_⟩
  rw [mem_block1]
  obtain ⟨-, -, -, -, -, -, e0, e1⟩ := blocks1 ⟨(i 0).val / 5000, hN⟩
  intro a
  match a with
  | ⟨0, _⟩ =>
    show win1_3.index ⟨(i 0).val / 5000, hN⟩ (0 : Fin 2) * 5000 ≤ (i 0).val ∧ (i 0).val < win1_3.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win1_3.index ⟨(i 0).val / 5000, hN⟩ (1 : Fin 2) * 64 ≤ (i 1).val ∧ (i 1).val < win1_3.index ⟨(i 0).val / 5000, hN⟩ (1 : Fin 2) * 64 + 64
    rw [e1]
    omega

/-- The result array after the region is the host's expression of the arrays the region found. -/
theorem final1 (V) (h1 : S1x64.BroadcastsInDim S50000x64 ![0, 1]) (h0 : S_.BroadcastsInDim S50000x64 ![]) (c : Dev nD) : (dat1 (F := Ideal) V c).arrAt 3 cfg1.N = (maximumf (addf (addf (V c main_v40) (V c main_v43)) (broadcastInDim S50000x64 ![0, 1] h1 (V c main_v44))) (broadcastInDim S50000x64 ![] h0 (constant S_ .f32 0x00000000#32)) : FVec Ideal S50000x64 .f32) :=
  (dat1 V c).arrAt_eq_of_cover 3 (combined1 h1 h0 (V c main_v40) (V c main_v43) (V c main_v44)) (fun t _ => flushed1 V h1 h0 c t) cover1

end Cert.KernelIdeal.Regions

end
-- ==== Proof.Region2.lean ====
/-
  The second projection, block by block.

  The second projection region multiplies the first layer's output, fifty thousand rows in ten blocks of five thousand, by the
  whole second weight matrix, one block of rows per grid point, each product accumulated into a zero block and written
  back to the block's rows of the result. A row of a block is a row of the whole left factor and the right factor is
  whole at every point, so the ten blocks together are the rows of the one product of the whole arrays: the array the
  region leaves is the host's product of the arrays it found.
-/
import proofs.«162146_j29454885716582_1_alg».proof.Proof.Gen.KernelIdeal.Frame
import proofs.«162146_j29454885716582_1_alg».proof.Proof.LibRowTiles
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace Projection2

/-- The origin of a two-axis array. -/
theorem origin : (![0, 0] : Fin 2 → Nat) = fun _ => 0 := funext fun a => by fin_cases a <;> rfl

/-- The whole product of the arrays the region reads. -/
abbrev product (x : FVec Ideal S50000x64 .f32) (w : FVec Ideal S64x128 .f32) : FVec Ideal S50000x128 .f32 :=
  FloatOps.dotGeneral (φ₁ := .f32) (φ₂ := .f32) (DotDims.plain 50000 64 128) none .single x w

/-- Where the three windows sit at grid point t: the left factor's and the result's blocks are the t-th block of rows,
    the right factor's is the whole array. -/
theorem blocks : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One entry of what a point computes: when row p of the left block is row a of the whole left factor and the right
    block is the whole right factor, entry (p, q) of the block's product is entry (a, q) of the whole product. The left block is first recast to its own shape, which changes no entry. -/
theorem payload_entry (X : FVec Ideal S50000x64 .f32) (W : FVec Ideal S64x128 .f32)
    (x0 : Vec Ideal S5000x64 .f32) (x1 : Vec Ideal S64x128 .f32) (p : Fin 5000) (q : Fin 128) (a : Fin 50000)
    (h0 : ∀ k : Fin 64, x0 (ix2 p k) = X (ix2 a k)) (h1 : ∀ k : Fin 64, x1 (ix2 k q) = W (ix2 k q)) :
    k2_pay1 x0 x1 (ix2 p q) = product X W (ix2 a q) := by
  unfold k2_pay1
  exact RowTiles.tile_entry (φ₁ := .f32) (φ₂ := .f32) none none .single X W (shapeCast S5000x64 x0 _) x1 p q a
    (fun k => (congrFun (shapeCast_self x0 _) (ix2 p k)).trans (h0 k)) h1

/-- What point t writes back is block t of the whole product. -/
theorem flushed (c : Dev nD) (t : Fin cfg2.N) :
    (dat2 V c).flushed 2 t
      = ((cfg2.win 2).blk t).view.read (Elt Ideal) (product (V c main_v45) (V c main_arg3)) := by
  show (cfg2.win 2).cut (grid2.coords t) ((dat2 V c).after 2 t) = _
  rw [after2_2]
  unfold out2_2
  rw [View.canon_unit_zero origin]
  simp only [View.ld_unit_zero (S := S5000x64) origin, View.ld_unit_zero (S := S64x128) origin]
  funext j
  obtain ⟨p, q, rfl⟩ : ∃ (p : Fin 5000) (q : Fin 128), j = ix2 p q := ⟨j 0, j 1, eq_ix2 j⟩
  obtain ⟨e00, e01, e10, e11, e20, e21⟩ := blocks t
  have ht : t.val < 10 := lt_of_lt_of_eq t.isLt N_2
  have ha : t.val * 5000 + p.val < 50000 := by have := p.isLt; omega
  have hemb : ((cfg2.win 2).blk t).view.emb (ix2 p q) = ix2 (⟨t.val * 5000 + p.val, ha⟩ : Fin 50000) q := by
    funext a; apply Fin.ext
    match a with
    | ⟨0, _⟩ => show win2_2.index t (0 : Fin 2) * 5000 + 1 * p.val = t.val * 5000 + p.val; rw [e20]; omega
    | ⟨1, _⟩ => show win2_2.index t (1 : Fin 2) * 128 + 1 * q.val = q.val; rw [e21]; omega
  show k2_pay1 (iblk2 V c 0 t) (iblk2 V c 1 t) (ix2 p q)
    = product (V c main_v45) (V c main_arg3) (((cfg2.win 2).blk t).view.emb (ix2 p q))
  refine (payload_entry (V c main_v45) (V c main_arg3) (iblk2 V c 0 t) (iblk2 V c 1 t) p q ⟨_, ha⟩
    (fun k => ?_) (fun k => ?_)).trans (congrArg _ hemb.symm)
  · show V c main_v45 (((cfg2.win 0).blk t).view.emb (ix2 p k))
      = V c main_v45 (ix2 (⟨t.val * 5000 + p.val, ha⟩ : Fin 50000) k)
    refine congrArg _ (funext fun a => Fin.ext ?_)
    match a with
    | ⟨0, _⟩ => show win2_0.index t (0 : Fin 2) * 5000 + 1 * p.val = t.val * 5000 + p.val; rw [e00]; omega
    | ⟨1, _⟩ => show win2_0.index t (1 : Fin 2) * 64 + 1 * k.val = k.val; rw [e01]; omega
  · show V c main_arg3 (((cfg2.win 1).blk t).view.emb (ix2 k q)) = V c main_arg3 (ix2 k q)
    refine congrArg _ (funext fun a => Fin.ext ?_)
    match a with
    | ⟨0, _⟩ => show win2_1.index t (0 : Fin 2) * 64 + 1 * k.val = k.val; rw [e10]; omega
    | ⟨1, _⟩ => show win2_1.index t (1 : Fin 2) * 128 + 1 * q.val = q.val; rw [e11]; omega

/-- An index of the result is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v46).slice (win2_2.rect t)).set ↔ _
  rw [View.set_slice_whole, Rect.mem_set_unit]
  exact Iff.rfl

/-- Every entry of the result is written by some point: row r by point r / 5000. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, lt_of_lt_of_eq (by omega : (i 0).val / 5000 < 10) N_2.symm⟩, rfl⟩
  obtain ⟨-, -, -, -, e20, e21⟩ := blocks t
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    rw [e20, ht]; omega
  | ⟨1, _⟩ =>
    show win2_2.index t (1 : Fin 2) * 128 ≤ (i 1).val ∧ (i 1).val < win2_2.index t (1 : Fin 2) * 128 + 128
    rw [e21]; omega

end Projection2

/-- The array the second projection region leaves is the host's product of the arrays it found. -/
theorem final2 (c : Dev nD) : (dat2 (F := Ideal) V c).arrAt 2 cfg2.N = (FloatOps.dotGeneral (φ₁ := .f32) (φ₂ := .f32) (DotDims.plain 50000 64 128) none .single (V c main_v45) (V c main_arg3) : FVec Ideal S50000x128 .f32) :=
  (dat2 V c).arrAt_eq_of_cover 2 (Projection2.product (V c main_v45) (V c main_arg3))
    (fun t _ => Projection2.flushed V c t) Projection2.cover

end Cert.KernelIdeal.Regions

end
-- ==== Proof.Region3.lean ====
/-
  The second combine step, block by block.

  The region walks fifty thousand rows in ten blocks of five thousand.  At each grid point it adds the block of the
  aggregate, the same block of the self term and the bias row (whole at every point, repeated down the rows), takes the
  maximum with zero entry by entry, and writes the block back to the same rows of the result.  An entry of a block is
  the entry of the whole array at row (block index × 5000 + row inside the block), so what each point writes is its block
  of one function of the whole arrays, and the ten blocks cover every row: the array the region leaves is that function,
  which is the host's expression max(aggregate + self + bias laid along the rows, 0) of the arrays the region found.
-/
import proofs.«162146_j29454885716582_1_alg».proof.Proof.Gen.KernelIdeal.Frame
import proofs.«162146_j29454885716582_1_alg».proof.Proof.RegionSharedB
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- What the result array holds after the region, as one function of the arrays the region reads. -/
abbrev combined3 (h1 : S1x128.BroadcastsInDim S50000x128 ![0, 1]) (h0 : S_.BroadcastsInDim S50000x128 ![])
    (a s : FVec Ideal S50000x128 .f32) (b : FVec Ideal S1x128 .f32) : FVec Ideal S50000x128 .f32 :=
  maximumf (addf (addf a s) (broadcastInDim S50000x128 ![0, 1] h1 b)) (broadcastInDim S50000x128 ![] h0 (constant S_ .f32 0x00000000#32))

/-- Where the four windows sit at grid point t: the aggregate's, the self term's and the result's blocks are the t-th
    block of rows, the bias's is the whole row. -/
theorem blocks3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The body's result at entry (p, q) of a block, from the three loaded blocks. -/
theorem body3_apply (x0 x1 : Vec Ideal S5000x128 .f32) (x2 : Vec Ideal S1x128 .f32) (p : Fin 5000) (q : Fin 128) :
    k3_pay1 x0 x1 x2 (ix2 p q)
      = max (x0 (ix2 p q) + x1 (ix2 p q) + x2 (ix2 (0 : Fin 1) q)) (Ideal.ofBits .f32 0x00000000#32) := by
  unfold k3_pay1
  exact combine_body_apply x0 x1 x2 _ _ _ p q

/-- Entry (p, q) of the aggregate's block at point t is the aggregate at row t × 5000 + p. -/
theorem block3_agg_apply (c : Dev nD) (t : Fin cfg3.N) (p : Fin 5000) (q : Fin 128) (r : Fin 50000)
    (hr : r.val = t.val * 5000 + p.val) :
    (iblk3 V c 0 t : Vec Ideal S5000x128 .f32) (ix2 p q) = (V c main_v59 : FVec Ideal S50000x128 .f32) (ix2 r q) := by
  obtain ⟨e0, e1, -⟩ := blocks3 t
  unfold iblk3
  rw [View.read_apply]
  show V c main_v59 _ = V c main_v59 _
  congr 1
  funext a
  apply Fin.ext
  match a with
  | ⟨0, _⟩ => show win3_0.index t (0 : Fin 2) * 5000 + 1 * p.val = r.val; omega
  | ⟨1, _⟩ => show win3_0.index t (1 : Fin 2) * 128 + 1 * q.val = q.val; omega

/-- Entry (p, q) of the self term's block at point t is the self term at row t × 5000 + p. -/
theorem block3_self_apply (c : Dev nD) (t : Fin cfg3.N) (p : Fin 5000) (q : Fin 128) (r : Fin 50000)
    (hr : r.val = t.val * 5000 + p.val) :
    (iblk3 V c 1 t : Vec Ideal S5000x128 .f32) (ix2 p q) = (V c main_v62 : FVec Ideal S50000x128 .f32) (ix2 r q) := by
  obtain ⟨-, -, e0, e1, -⟩ := blocks3 t
  unfold iblk3
  rw [View.read_apply]
  show V c main_v62 _ = V c main_v62 _
  congr 1
  funext a
  apply Fin.ext
  match a with
  | ⟨0, _⟩ => show win3_1.index t (0 : Fin 2) * 5000 + 1 * p.val = r.val; omega
  | ⟨1, _⟩ => show win3_1.index t (1 : Fin 2) * 128 + 1 * q.val = q.val; omega

/-- The bias's block at every point is the whole bias row. -/
theorem block3_bias_apply (c : Dev nD) (t : Fin cfg3.N) (u : Fin 1) (q : Fin 128) :
    (iblk3 V c 2 t : Vec Ideal S1x128 .f32) (ix2 u q) = (V c main_v63 : FVec Ideal S1x128 .f32) (ix2 u q) := by
  obtain ⟨-, -, -, -, e0, e1, -⟩ := blocks3 t
  unfold iblk3
  rw [View.read_apply]
  show V c main_v63 _ = V c main_v63 _
  congr 1
  funext a
  apply Fin.ext
  match a with
  | ⟨0, _⟩ => show win3_2.index t (0 : Fin 2) * 1 + 1 * u.val = u.val; omega
  | ⟨1, _⟩ => show win3_2.index t (1 : Fin 2) * 128 + 1 * q.val = q.val; omega

/-- What point t writes back is block t of the function of the whole arrays. -/
theorem flushed3 (h1 : S1x128.BroadcastsInDim S50000x128 ![0, 1]) (h0 : S_.BroadcastsInDim S50000x128 ![]) (c : Dev nD)
    (t : Fin cfg3.N) :
    (dat3 V c).flushed 3 t
      = ((cfg3.win 3).blk t).view.read (Elt Ideal) (combined3 h1 h0 (V c main_v59) (V c main_v62) (V c main_v63)) := by
  show (cfg3.win 3).cut (grid3.coords t) ((dat3 V c).after 3 t) = _
  rw [after3_3]
  unfold out3_3
  rw [View.canon_unit_zero offsets_zero2]
  simp only [View.ld_unit_zero (S := S5000x128) offsets_zero2, View.ld_unit_zero (S := S1x128) offsets_zero2]
  funext j
  obtain ⟨p, q, rfl⟩ : ∃ (p : Fin 5000) (q : Fin 128), j = ix2 p q := ⟨j 0, j 1, eq_ix2 j⟩
  have ht : t.val < 10 := lt_of_lt_of_eq t.isLt N_3
  have hp : p.val < 5000 := p.isLt
  have hlt : t.val * 5000 + p.val < 50000 := by omega
  obtain ⟨-, -, -, -, -, -, e0, e1⟩ := blocks3 t
  have hemb : (((cfg3.win 3).blk t).view.emb (ix2 p q) : S50000x128.Idx)
      = ix2 (⟨t.val * 5000 + p.val, hlt⟩ : Fin 50000) q := by
    funext a
    apply Fin.ext
    match a with
    | ⟨0, _⟩ => show win3_3.index t (0 : Fin 2) * 5000 + 1 * p.val = t.val * 5000 + p.val; omega
    | ⟨1, _⟩ => show win3_3.index t (1 : Fin 2) * 128 + 1 * q.val = q.val; omega
  show k3_pay1 (iblk3 V c 0 t) (iblk3 V c 1 t) (iblk3 V c 2 t) (ix2 p q)
    = combined3 h1 h0 (V c main_v59) (V c main_v62) (V c main_v63) (((cfg3.win 3).blk t).view.emb (ix2 p q))
  rw [hemb]
  refine (body3_apply _ _ _ p q).trans ?_
  rw [block3_agg_apply V c t p q ⟨t.val * 5000 + p.val, hlt⟩ rfl, block3_self_apply V c t p q ⟨t.val * 5000 + p.val, hlt⟩ rfl,
    block3_bias_apply V c t 0 q]
  exact (combine_host_apply h1 h0 _ _ _ _ q).symm

/-- An index of the result is in point t's block iff each coordinate is in the block's range on its axis. -/
theorem mem_block3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v64).slice (win3_3.rect t)).set ↔ _
  rw [View.set_slice_whole, Rect.mem_set_unit]
  exact Iff.rfl

/-- Every row of the result is in some point's block: row r in the block of point r / 5000. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : (i 0).val / 5000 < cfg3.N := lt_of_lt_of_eq (by omega : (i 0).val / 5000 < 10) N_3.symm
  refine ⟨⟨(i 0).val / 5000, hN⟩, flush3_3 _, ?_⟩
  rw [mem_block3]
  obtain ⟨-, -, -, -, -, -, e0, e1⟩ := blocks3 ⟨(i 0).val / 5000, hN⟩
  intro a
  match a with
  | ⟨0, _⟩ =>
    show win3_3.index ⟨(i 0).val / 5000, hN⟩ (0 : Fin 2) * 5000 ≤ (i 0).val ∧ (i 0).val < win3_3.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win3_3.index ⟨(i 0).val / 5000, hN⟩ (1 : Fin 2) * 128 ≤ (i 1).val ∧ (i 1).val < win3_3.index ⟨(i 0).val / 5000, hN⟩ (1 : Fin 2) * 128 + 128
    rw [e1]
    omega

/-- The result array after the region is the host's expression of the arrays the region found. -/
theorem final3 (V) (h1 : S1x128.BroadcastsInDim S50000x128 ![0, 1]) (h0 : S_.BroadcastsInDim S50000x128 ![]) (c : Dev nD) : (dat3 (F := Ideal) V c).arrAt 3 cfg3.N = (maximumf (addf (addf (V c main_v59) (V c main_v62)) (broadcastInDim S50000x128 ![0, 1] h1 (V c main_v63))) (broadcastInDim S50000x128 ![] h0 (constant S_ .f32 0x00000000#32)) : FVec Ideal S50000x128 .f32) :=
  (dat3 V c).arrAt_eq_of_cover 3 (combined3 h1 h0 (V c main_v59) (V c main_v62) (V c main_v63)) (fun t _ => flushed3 V h1 h0 c t) cover3

end Cert.KernelIdeal.Regions

end
-- ==== Proof.Region4.lean ====
/-
  The third projection, block by block.

  The third projection region multiplies the second layer's output, fifty thousand rows in ten blocks of five thousand, by the
  whole third weight matrix, one block of rows per grid point, each product accumulated into a zero block and written
  back to the block's rows of the result. A row of a block is a row of the whole left factor and the right factor is
  whole at every point, so the ten blocks together are the rows of the one product of the whole arrays: the array the
  region leaves is the host's product of the arrays it found.
-/
import proofs.«162146_j29454885716582_1_alg».proof.Proof.Gen.KernelIdeal.Frame
import proofs.«162146_j29454885716582_1_alg».proof.Proof.LibRowTiles
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace Projection4

/-- The origin of a two-axis array. -/
theorem origin : (![0, 0] : Fin 2 → Nat) = fun _ => 0 := funext fun a => by fin_cases a <;> rfl

/-- The whole product of the arrays the region reads. -/
abbrev product (x : FVec Ideal S50000x128 .f32) (w : FVec Ideal S128x64 .f32) : FVec Ideal S50000x64 .f32 :=
  FloatOps.dotGeneral (φ₁ := .f32) (φ₂ := .f32) (DotDims.plain 50000 128 64) none .single x w

/-- Where the three windows sit at grid point t: the left factor's and the result's blocks are the t-th block of rows,
    the right factor's is the whole array. -/
theorem blocks : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- One entry of what a point computes: when row p of the left block is row a of the whole left factor and the right
    block is the whole right factor, entry (p, q) of the block's product is entry (a, q) of the whole product. The left block is first recast to its own shape, which changes no entry. -/
theorem payload_entry (X : FVec Ideal S50000x128 .f32) (W : FVec Ideal S128x64 .f32)
    (x0 : Vec Ideal S5000x128 .f32) (x1 : Vec Ideal S128x64 .f32) (p : Fin 5000) (q : Fin 64) (a : Fin 50000)
    (h0 : ∀ k : Fin 128, x0 (ix2 p k) = X (ix2 a k)) (h1 : ∀ k : Fin 128, x1 (ix2 k q) = W (ix2 k q)) :
    k4_pay1 x0 x1 (ix2 p q) = product X W (ix2 a q) := by
  unfold k4_pay1
  exact RowTiles.tile_entry (φ₁ := .f32) (φ₂ := .f32) none none .single X W (shapeCast S5000x128 x0 _) x1 p q a
    (fun k => (congrFun (shapeCast_self x0 _) (ix2 p k)).trans (h0 k)) h1

/-- What point t writes back is block t of the whole product. -/
theorem flushed (c : Dev nD) (t : Fin cfg4.N) :
    (dat4 V c).flushed 2 t
      = ((cfg4.win 2).blk t).view.read (Elt Ideal) (product (V c main_v64) (V c main_arg5)) := by
  show (cfg4.win 2).cut (grid4.coords t) ((dat4 V c).after 2 t) = _
  rw [after4_2]
  unfold out4_2
  rw [View.canon_unit_zero origin]
  simp only [View.ld_unit_zero (S := S5000x128) origin, View.ld_unit_zero (S := S128x64) origin]
  funext j
  obtain ⟨p, q, rfl⟩ : ∃ (p : Fin 5000) (q : Fin 64), j = ix2 p q := ⟨j 0, j 1, eq_ix2 j⟩
  obtain ⟨e00, e01, e10, e11, e20, e21⟩ := blocks t
  have ht : t.val < 10 := lt_of_lt_of_eq t.isLt N_4
  have ha : t.val * 5000 + p.val < 50000 := by have := p.isLt; omega
  have hemb : ((cfg4.win 2).blk t).view.emb (ix2 p q) = ix2 (⟨t.val * 5000 + p.val, ha⟩ : Fin 50000) q := by
    funext a; apply Fin.ext
    match a with
    | ⟨0, _⟩ => show win4_2.index t (0 : Fin 2) * 5000 + 1 * p.val = t.val * 5000 + p.val; rw [e20]; omega
    | ⟨1, _⟩ => show win4_2.index t (1 : Fin 2) * 64 + 1 * q.val = q.val; rw [e21]; omega
  show k4_pay1 (iblk4 V c 0 t) (iblk4 V c 1 t) (ix2 p q)
    = product (V c main_v64) (V c main_arg5) (((cfg4.win 2).blk t).view.emb (ix2 p q))
  refine (payload_entry (V c main_v64) (V c main_arg5) (iblk4 V c 0 t) (iblk4 V c 1 t) p q ⟨_, ha⟩
    (fun k => ?_) (fun k => ?_)).trans (congrArg _ hemb.symm)
  · show V c main_v64 (((cfg4.win 0).blk t).view.emb (ix2 p k))
      = V c main_v64 (ix2 (⟨t.val * 5000 + p.val, ha⟩ : Fin 50000) k)
    refine congrArg _ (funext fun a => Fin.ext ?_)
    match a with
    | ⟨0, _⟩ => show win4_0.index t (0 : Fin 2) * 5000 + 1 * p.val = t.val * 5000 + p.val; rw [e00]; omega
    | ⟨1, _⟩ => show win4_0.index t (1 : Fin 2) * 128 + 1 * k.val = k.val; rw [e01]; omega
  · show V c main_arg5 (((cfg4.win 1).blk t).view.emb (ix2 k q)) = V c main_arg5 (ix2 k q)
    refine congrArg _ (funext fun a => Fin.ext ?_)
    match a with
    | ⟨0, _⟩ => show win4_1.index t (0 : Fin 2) * 128 + 1 * k.val = k.val; rw [e10]; omega
    | ⟨1, _⟩ => show win4_1.index t (1 : Fin 2) * 64 + 1 * q.val = q.val; rw [e11]; omega

/-- An index of the result is in point t's block iff each coordinate is in the block's range on its axis. -/
theorem mem_blk (t : Fin cfg4.N) (i : S50000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v65).slice (win4_2.rect t)).set ↔ _
  rw [View.set_slice_whole, Rect.mem_set_unit]
  exact Iff.rfl

/-- Every entry of the result is written by some point: row r by point r / 5000. -/
theorem cover (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ : ∃ t : Fin cfg4.N, t.val = (i 0).val / 5000 :=
    ⟨⟨(i 0).val / 5000, lt_of_lt_of_eq (by omega : (i 0).val / 5000 < 10) N_4.symm⟩, rfl⟩
  obtain ⟨-, -, -, -, e20, e21⟩ := blocks t
  refine ⟨t, flush4_2 t, ?_⟩
  rw [mem_blk]
  intro a
  match a with
  | ⟨0, _⟩ =>
    show win4_2.index t (0 : Fin 2) * 5000 ≤ (i 0).val ∧ (i 0).val < win4_2.index t (0 : Fin 2) * 5000 + 5000
    rw [e20, ht]; omega
  | ⟨1, _⟩ =>
    show win4_2.index t (1 : Fin 2) * 64 ≤ (i 1).val ∧ (i 1).val < win4_2.index t (1 : Fin 2) * 64 + 64
    rw [e21]; omega

end Projection4

/-- The array the third projection region leaves is the host's product of the arrays it found. -/
theorem final4 (c : Dev nD) : (dat4 (F := Ideal) V c).arrAt 2 cfg4.N = (FloatOps.dotGeneral (φ₁ := .f32) (φ₂ := .f32) (DotDims.plain 50000 128 64) none .single (V c main_v64) (V c main_arg5) : FVec Ideal S50000x64 .f32) :=
  (dat4 V c).arrAt_eq_of_cover 2 (Projection4.product (V c main_v64) (V c main_arg5))
    (fun t _ => Projection4.flushed V c t) Projection4.cover

end Cert.KernelIdeal.Regions

end
-- ==== Proof.Region5.lean ====
/-
  The third combine step, block by block.

  The region walks fifty thousand rows in ten blocks of five thousand.  At each grid point it adds the block of the
  aggregate, the same block of the self term and the bias row (whole at every point, repeated down the rows), takes the
  maximum with zero entry by entry, and writes the block back to the same rows of the result.  An entry of a block is
  the entry of the whole array at row (block index × 5000 + row inside the block), so what each point writes is its block
  of one function of the whole arrays, and the ten blocks cover every row: the array the region leaves is that function,
  which is the host's expression max(aggregate + self + bias laid along the rows, 0) of the arrays the region found.
-/
import proofs.«162146_j29454885716582_1_alg».proof.Proof.Gen.KernelIdeal.Frame
import proofs.«162146_j29454885716582_1_alg».proof.Proof.RegionSharedB
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- What the result array holds after the region, as one function of the arrays the region reads. -/
abbrev combined5 (h1 : S1x64.BroadcastsInDim S50000x64 ![0, 1]) (h0 : S_.BroadcastsInDim S50000x64 ![])
    (a s : FVec Ideal S50000x64 .f32) (b : FVec Ideal S1x64 .f32) : FVec Ideal S50000x64 .f32 :=
  maximumf (addf (addf a s) (broadcastInDim S50000x64 ![0, 1] h1 b)) (broadcastInDim S50000x64 ![] h0 (constant S_ .f32 0x00000000#32))

/-- Where the four windows sit at grid point t: the aggregate's, the self term's and the result's blocks are the t-th
    block of rows, the bias's is the whole row. -/
theorem blocks5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The body's result at entry (p, q) of a block, from the three loaded blocks. -/
theorem body5_apply (x0 x1 : Vec Ideal S5000x64 .f32) (x2 : Vec Ideal S1x64 .f32) (p : Fin 5000) (q : Fin 64) :
    k5_pay1 x0 x1 x2 (ix2 p q)
      = max (x0 (ix2 p q) + x1 (ix2 p q) + x2 (ix2 (0 : Fin 1) q)) (Ideal.ofBits .f32 0x00000000#32) := by
  unfold k5_pay1
  exact combine_body_apply x0 x1 x2 _ _ _ p q

/-- Entry (p, q) of the aggregate's block at point t is the aggregate at row t × 5000 + p. -/
theorem block5_agg_apply (c : Dev nD) (t : Fin cfg5.N) (p : Fin 5000) (q : Fin 64) (r : Fin 50000)
    (hr : r.val = t.val * 5000 + p.val) :
    (iblk5 V c 0 t : Vec Ideal S5000x64 .f32) (ix2 p q) = (V c main_v78 : FVec Ideal S50000x64 .f32) (ix2 r q) := by
  obtain ⟨e0, e1, -⟩ := blocks5 t
  unfold iblk5
  rw [View.read_apply]
  show V c main_v78 _ = V c main_v78 _
  congr 1
  funext a
  apply Fin.ext
  match a with
  | ⟨0, _⟩ => show win5_0.index t (0 : Fin 2) * 5000 + 1 * p.val = r.val; omega
  | ⟨1, _⟩ => show win5_0.index t (1 : Fin 2) * 64 + 1 * q.val = q.val; omega

/-- Entry (p, q) of the self term's block at point t is the self term at row t × 5000 + p. -/
theorem block5_self_apply (c : Dev nD) (t : Fin cfg5.N) (p : Fin 5000) (q : Fin 64) (r : Fin 50000)
    (hr : r.val = t.val * 5000 + p.val) :
    (iblk5 V c 1 t : Vec Ideal S5000x64 .f32) (ix2 p q) = (V c main_v81 : FVec Ideal S50000x64 .f32) (ix2 r q) := by
  obtain ⟨-, -, e0, e1, -⟩ := blocks5 t
  unfold iblk5
  rw [View.read_apply]
  show V c main_v81 _ = V c main_v81 _
  congr 1
  funext a
  apply Fin.ext
  match a with
  | ⟨0, _⟩ => show win5_1.index t (0 : Fin 2) * 5000 + 1 * p.val = r.val; omega
  | ⟨1, _⟩ => show win5_1.index t (1 : Fin 2) * 64 + 1 * q.val = q.val; omega

/-- The bias's block at every point is the whole bias row. -/
theorem block5_bias_apply (c : Dev nD) (t : Fin cfg5.N) (u : Fin 1) (q : Fin 64) :
    (iblk5 V c 2 t : Vec Ideal S1x64 .f32) (ix2 u q) = (V c main_v82 : FVec Ideal S1x64 .f32) (ix2 u q) := by
  obtain ⟨-, -, -, -, e0, e1, -⟩ := blocks5 t
  unfold iblk5
  rw [View.read_apply]
  show V c main_v82 _ = V c main_v82 _
  congr 1
  funext a
  apply Fin.ext
  match a with
  | ⟨0, _⟩ => show win5_2.index t (0 : Fin 2) * 1 + 1 * u.val = u.val; omega
  | ⟨1, _⟩ => show win5_2.index t (1 : Fin 2) * 64 + 1 * q.val = q.val; omega

/-- What point t writes back is block t of the function of the whole arrays. -/
theorem flushed5 (h1 : S1x64.BroadcastsInDim S50000x64 ![0, 1]) (h0 : S_.BroadcastsInDim S50000x64 ![]) (c : Dev nD)
    (t : Fin cfg5.N) :
    (dat5 V c).flushed 3 t
      = ((cfg5.win 3).blk t).view.read (Elt Ideal) (combined5 h1 h0 (V c main_v78) (V c main_v81) (V c main_v82)) := by
  show (cfg5.win 3).cut (grid5.coords t) ((dat5 V c).after 3 t) = _
  rw [after5_3]
  unfold out5_3
  rw [View.canon_unit_zero offsets_zero2]
  simp only [View.ld_unit_zero (S := S5000x64) offsets_zero2, View.ld_unit_zero (S := S1x64) offsets_zero2]
  funext j
  obtain ⟨p, q, rfl⟩ : ∃ (p : Fin 5000) (q : Fin 64), j = ix2 p q := ⟨j 0, j 1, eq_ix2 j⟩
  have ht : t.val < 10 := lt_of_lt_of_eq t.isLt N_5
  have hp : p.val < 5000 := p.isLt
  have hlt : t.val * 5000 + p.val < 50000 := by omega
  obtain ⟨-, -, -, -, -, -, e0, e1⟩ := blocks5 t
  have hemb : (((cfg5.win 3).blk t).view.emb (ix2 p q) : S50000x64.Idx)
      = ix2 (⟨t.val * 5000 + p.val, hlt⟩ : Fin 50000) q := by
    funext a
    apply Fin.ext
    match a with
    | ⟨0, _⟩ => show win5_3.index t (0 : Fin 2) * 5000 + 1 * p.val = t.val * 5000 + p.val; omega
    | ⟨1, _⟩ => show win5_3.index t (1 : Fin 2) * 64 + 1 * q.val = q.val; omega
  show k5_pay1 (iblk5 V c 0 t) (iblk5 V c 1 t) (iblk5 V c 2 t) (ix2 p q)
    = combined5 h1 h0 (V c main_v78) (V c main_v81) (V c main_v82) (((cfg5.win 3).blk t).view.emb (ix2 p q))
  rw [hemb]
  refine (body5_apply _ _ _ p q).trans ?_
  rw [block5_agg_apply V c t p q ⟨t.val * 5000 + p.val, hlt⟩ rfl, block5_self_apply V c t p q ⟨t.val * 5000 + p.val, hlt⟩ rfl,
    block5_bias_apply V c t 0 q]
  exact (combine_host_apply h1 h0 _ _ _ _ q).symm

/-- An index of the result is in point t's block iff each coordinate is in the block's range on its axis. -/
theorem mem_block5 (t : Fin cfg5.N) (i : S50000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v83).slice (win5_3.rect t)).set ↔ _
  rw [View.set_slice_whole, Rect.mem_set_unit]
  exact Iff.rfl

/-- Every row of the result is in some point's block: row r in the block of point r / 5000. -/
theorem cover5 (i : S50000x64.Idx) :
    ∃ t : Fin cfg5.N, (cfg5.win 3).flush t = true ∧ i ∈ ((cfg5.win 3).blk t).view.set := by
  have hi0 : (i 0).val < 50000 := (i 0).isLt
  have hi1 : (i 1).val < 64 := (i 1).isLt
  have hN : (i 0).val / 5000 < cfg5.N := lt_of_lt_of_eq (by omega : (i 0).val / 5000 < 10) N_5.symm
  refine ⟨⟨(i 0).val / 5000, hN⟩, flush5_3 _, ?_⟩
  rw [mem_block5]
  obtain ⟨-, -, -, -, -, -, e0, e1⟩ := blocks5 ⟨(i 0).val / 5000, hN⟩
  intro a
  match a with
  | ⟨0, _⟩ =>
    show win5_3.index ⟨(i 0).val / 5000, hN⟩ (0 : Fin 2) * 5000 ≤ (i 0).val ∧ (i 0).val < win5_3.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win5_3.index ⟨(i 0).val / 5000, hN⟩ (1 : Fin 2) * 64 ≤ (i 1).val ∧ (i 1).val < win5_3.index ⟨(i 0).val / 5000, hN⟩ (1 : Fin 2) * 64 + 64
    rw [e1]
    omega

/-- The result array after the region is the host's expression of the arrays the region found. -/
theorem final5 (V) (h1 : S1x64.BroadcastsInDim S50000x64 ![0, 1]) (h0 : S_.BroadcastsInDim S50000x64 ![]) (c : Dev nD) : (dat5 (F := Ideal) V c).arrAt 3 cfg5.N = (maximumf (addf (addf (V c main_v78) (V c main_v81)) (broadcastInDim S50000x64 ![0, 1] h1 (V c main_v82))) (broadcastInDim S50000x64 ![] h0 (constant S_ .f32 0x00000000#32)) : FVec Ideal S50000x64 .f32) :=
  (dat5 V c).arrAt_eq_of_cover 3 (combined5 h1 h0 (V c main_v78) (V c main_v81) (V c main_v82)) (fun t _ => flushed5 V h1 h0 c t) cover5

end Cert.KernelIdeal.Regions

end
-- ==== Proof.Region6.lean ====
/-
  The head: two small matrix products with bias rows, as one point.

  The last region has a single grid point and every window is its whole array.  Its body multiplies the pooled
  features by the first weight matrix, adds the first bias row down the rows, takes the maximum with zero, multiplies
  by the second weight matrix and adds the second bias row.  The operands of each product are first narrowed to a
  shorter float format, which changes no entry on the extended reals, and each product is accumulated into a zero
  array, which is the host's product of the same operands.  A row repeated down the rows by the body's broadcast is the
  same array as the host's broadcast_in_dim along the second axis, and the body's splat of zero is the host's scalar
  zero repeated.  So the one block the point writes back, which is the whole result, is the host's expression of the
  arrays the region found.
-/
import proofs.«162146_j29454885716582_1_alg».proof.Proof.Gen.KernelIdeal.Frame
import proofs.«162146_j29454885716582_1_alg».proof.Proof.RegionSharedB
import proofs.«162146_j29454885716582_1_alg».proof.Proof.LibRowTiles
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- A row repeated down the rows: the body's broadcast of a [1,b] row to [a,b] and the host's broadcast_in_dim along the
    second axis are one array, both reading the row's entry in the same column. -/
theorem row_broadcast_eq {α : Type} {a b : ℕ} (x : (⟨2, ![1, b]⟩ : Shape).Idx → α)
    (hb : (⟨2, ![1, b]⟩ : Shape).Broadcasts ⟨2, ![a, b]⟩)
    (h1 : (⟨2, ![1, b]⟩ : Shape).BroadcastsInDim ⟨2, ![a, b]⟩ ![0, 1]) :
    broadcastTo ⟨2, ![a, b]⟩ x hb = broadcastInDim ⟨2, ![a, b]⟩ ![0, 1] h1 x := by
  funext j
  obtain ⟨p, q, rfl⟩ : ∃ (p : Fin a) (q : Fin b), j = ix2 p q := ⟨j 0, j 1, eq_ix2 j⟩
  rw [BroadcastLayout.row_repeat_apply ![0, 1] rfl h1 x p q]
  exact broadcastTo_apply x hb (ix2 p q) (ix2 (0 : Fin 1) q) (fun ax => by
    match ax with
    | ⟨0, _⟩ =>
      show 0 = if (1 : ℕ) = 1 then 0 else _
      rw [if_pos rfl]
    | ⟨1, _⟩ =>
      show q.val = if b = 1 then 0 else q.val
      split
      · have := q.isLt; omega
      · rfl)

/-- The body's splat of the zero word is the host's scalar zero repeated to the same shape. -/
theorem splat_zero_eq {t : Shape} (h0 : (⟨0, ![]⟩ : Shape).BroadcastsInDim t ![]) :
    (broadcast t (Scalar.ofBits .f32 0x00000000#32) : FVec Ideal t .f32)
      = broadcastInDim t ![] h0 (constant (F := Ideal) ⟨0, ![]⟩ .f32 0x00000000#32) := by
  funext j
  rw [BroadcastLayout.scalar_apply ![] h0 _ j]
  rfl

/-- The matrix unit's product of two narrowed operands into the zero array is the host's product of the operands. -/
theorem narrowed_product_eq {m k n : ℕ} (X : FVec Ideal ⟨2, ![m, k]⟩ .f32) (W : FVec Ideal ⟨2, ![k, n]⟩ .f32)
    (h : FTy.bits .bf16 < FTy.bits .f32) :
    FloatOps.matmul (DotDims.plain m k n) none (truncf .bf16 X h) (truncf .bf16 W h) (constant ⟨2, ![m, n]⟩ .f32 0x00000000#32)
      = FloatOps.dotGeneral (φ₁ := .f32) (φ₂ := .f32) (DotDims.plain m k n) none .single X W :=
  (PlainDot.matmul_zero_eq_dotGeneral none none .single _ _).trans (RowTiles.dotGeneral_truncf none none .single X W h)

/-- What the result array holds after the region, as one function of the arrays the region reads. -/
abbrev head6 (h1 : S1x32.BroadcastsInDim S256x32 ![0, 1]) (h0 : S_.BroadcastsInDim S256x32 ![]) (h2 : S1x1.BroadcastsInDim S256x1 ![0, 1])
    (X : FVec Ideal S256x64 .f32) (W1 : FVec Ideal S64x32 .f32) (b1 : FVec Ideal S1x32 .f32) (W2 : FVec Ideal S32x1 .f32)
    (b2 : FVec Ideal S1x1 .f32) : FVec Ideal S256x1 .f32 :=
  addf (FloatOps.dotGeneral (φ₁ := .f32) (φ₂ := .f32) (DotDims.plain 256 32 1) none .single (maximumf (addf (FloatOps.dotGeneral (φ₁ := .f32) (φ₂ := .f32) (DotDims.plain 256 64 32) none .single X W1) (broadcastInDim S256x32 ![0, 1] h1 b1)) (broadcastInDim S256x32 ![] h0 (constant S_ .f32 0x00000000#32))) W2) (broadcastInDim S256x1 ![0, 1] h2 b2)

/-- The body's result from its five loaded arrays is that function of them. -/
theorem body6_eq (h1 : S1x32.BroadcastsInDim S256x32 ![0, 1]) (h0 : S_.BroadcastsInDim S256x32 ![]) (h2 : S1x1.BroadcastsInDim S256x1 ![0, 1])
    (X : FVec Ideal S256x64 .f32) (W1 : FVec Ideal S64x32 .f32) (b1 : FVec Ideal S1x32 .f32) (W2 : FVec Ideal S32x1 .f32)
    (b2 : FVec Ideal S1x1 .f32) : k6_pay1 (F := Ideal) X W1 b1 W2 b2 = head6 h1 h0 h2 X W1 b1 W2 b2 := by
  unfold k6_pay1
  rw [shapeCast_self, shapeCast_self, shapeCast_self]
  show (addf (FloatOps.matmul (DotDims.plain 256 32 1) none
      (truncf .bf16 (maximumf (addf (FloatOps.matmul (DotDims.plain 256 64 32) none (truncf .bf16 X bitsLt_bf16_f32)
          (truncf .bf16 W1 bitsLt_bf16_f32) (constant ⟨2, ![256, 32]⟩ .f32 0x00000000#32))
        (broadcastTo S256x32 b1 broadcasts_S1x32_S256x32)) (broadcast S256x32 (Scalar.ofBits .f32 0x00000000#32))) bitsLt_bf16_f32)
      (truncf .bf16 W2 bitsLt_bf16_f32) (constant ⟨2, ![256, 1]⟩ .f32 0x00000000#32))
    (broadcastTo S256x1 b2 broadcasts_S1x1_S256x1) : FVec Ideal S256x1 .f32) = _
  rw [narrowed_product_eq X W1, row_broadcast_eq b1 _ h1, splat_zero_eq h0, narrowed_product_eq _ W2,
    row_broadcast_eq b2 _ h2]

/-- Every window's block index at the one grid point is zero on both axes. -/
theorem blocks6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- The pooled features' block is the whole array. -/
theorem block6_features (c : Dev nD) (t : Fin cfg6.N) : (iblk6 V c 0 t : Vec Ideal S256x64 .f32) = V c main_v95 := by
  obtain ⟨e0, e1, -⟩ := blocks6 t
  unfold iblk6
  funext j
  obtain ⟨p, q, rfl⟩ : ∃ (p : Fin 256) (q : Fin 64), j = ix2 p q := ⟨j 0, j 1, eq_ix2 j⟩
  rw [View.read_apply]
  show V c main_v95 _ = V c main_v95 _
  congr 1
  funext a
  apply Fin.ext
  match a with
  | ⟨0, _⟩ => show win6_0.index t (0 : Fin 2) * 256 + 1 * p.val = p.val; omega
  | ⟨1, _⟩ => show win6_0.index t (1 : Fin 2) * 64 + 1 * q.val = q.val; omega

/-- The first weight matrix's block is the whole array. -/
theorem block6_weight1 (c : Dev nD) (t : Fin cfg6.N) : (iblk6 V c 1 t : Vec Ideal S64x32 .f32) = V c main_arg7 := by
  obtain ⟨-, -, e0, e1, -⟩ := blocks6 t
  unfold iblk6
  funext j
  obtain ⟨p, q, rfl⟩ : ∃ (p : Fin 64) (q : Fin 32), j = ix2 p q := ⟨j 0, j 1, eq_ix2 j⟩
  rw [View.read_apply]
  show V c main_arg7 _ = V c main_arg7 _
  congr 1
  funext a
  apply Fin.ext
  match a with
  | ⟨0, _⟩ => show win6_1.index t (0 : Fin 2) * 64 + 1 * p.val = p.val; omega
  | ⟨1, _⟩ => show win6_1.index t (1 : Fin 2) * 32 + 1 * q.val = q.val; omega

/-- The first bias row's block is the whole row. -/
theorem block6_bias1 (c : Dev nD) (t : Fin cfg6.N) : (iblk6 V c 2 t : Vec Ideal S1x32 .f32) = V c main_v96 := by
  obtain ⟨-, -, -, -, e0, e1, -⟩ := blocks6 t
  unfold iblk6
  funext j
  obtain ⟨p, q, rfl⟩ : ∃ (p : Fin 1) (q : Fin 32), j = ix2 p q := ⟨j 0, j 1, eq_ix2 j⟩
  rw [View.read_apply]
  show V c main_v96 _ = V c main_v96 _
  congr 1
  funext a
  apply Fin.ext
  match a with
  | ⟨0, _⟩ => show win6_2.index t (0 : Fin 2) * 1 + 1 * p.val = p.val; omega
  | ⟨1, _⟩ => show win6_2.index t (1 : Fin 2) * 32 + 1 * q.val = q.val; omega

/-- The second weight matrix's block is the whole array. -/
theorem block6_weight2 (c : Dev nD) (t : Fin cfg6.N) : (iblk6 V c 3 t : Vec Ideal S32x1 .f32) = V c main_arg9 := by
  obtain ⟨-, -, -, -, -, -, e0, e1, -⟩ := blocks6 t
  unfold iblk6
  funext j
  obtain ⟨p, q, rfl⟩ : ∃ (p : Fin 32) (q : Fin 1), j = ix2 p q := ⟨j 0, j 1, eq_ix2 j⟩
  rw [View.read_apply]
  show V c main_arg9 _ = V c main_arg9 _
  congr 1
  funext a
  apply Fin.ext
  match a with
  | ⟨0, _⟩ => show win6_3.index t (0 : Fin 2) * 32 + 1 * p.val = p.val; omega
  | ⟨1, _⟩ => show win6_3.index t (1 : Fin 2) * 1 + 1 * q.val = q.val; omega

/-- The second bias's block is the whole array. -/
theorem block6_bias2 (c : Dev nD) (t : Fin cfg6.N) : (iblk6 V c 4 t : Vec Ideal S1x1 .f32) = V c main_v97 := by
  obtain ⟨-, -, -, -, -, -, -, -, e0, e1, -⟩ := blocks6 t
  unfold iblk6
  funext j
  obtain ⟨p, q, rfl⟩ : ∃ (p : Fin 1) (q : Fin 1), j = ix2 p q := ⟨j 0, j 1, eq_ix2 j⟩
  rw [View.read_apply]
  show V c main_v97 _ = V c main_v97 _
  congr 1
  funext a
  apply Fin.ext
  match a with
  | ⟨0, _⟩ => show win6_4.index t (0 : Fin 2) * 1 + 1 * p.val = p.val; omega
  | ⟨1, _⟩ => show win6_4.index t (1 : Fin 2) * 1 + 1 * q.val = q.val; omega

/-- What the one point writes back is the (whole) block of the function of the whole arrays. -/
theorem flushed6 (h1 : S1x32.BroadcastsInDim S256x32 ![0, 1]) (h0 : S_.BroadcastsInDim S256x32 ![]) (h2 : S1x1.BroadcastsInDim S256x1 ![0, 1])
    (c : Dev nD) (t : Fin cfg6.N) :
    (dat6 V c).flushed 5 t
      = ((cfg6.win 5).blk t).view.read (Elt Ideal)
          (head6 h1 h0 h2 (V c main_v95) (V c main_arg7) (V c main_v96) (V c main_arg9) (V c main_v97)) := by
  show (cfg6.win 5).cut (grid6.coords t) ((dat6 V c).after 5 t) = _
  rw [after6_5]
  unfold out6_5
  rw [View.canon_unit_zero offsets_zero2]
  simp only [View.ld_unit_zero (S := S256x64) offsets_zero2, View.ld_unit_zero (S := S64x32) offsets_zero2,
    View.ld_unit_zero (S := S1x32) offsets_zero2, View.ld_unit_zero (S := S32x1) offsets_zero2,
    View.ld_unit_zero (S := S1x1) offsets_zero2]
  rw [block6_features V c t, block6_weight1 V c t, block6_bias1 V c t, block6_weight2 V c t, block6_bias2 V c t,
    body6_eq h1 h0 h2]
  funext j
  obtain ⟨p, q, rfl⟩ : ∃ (p : Fin 256) (q : Fin 1), j = ix2 p q := ⟨j 0, j 1, eq_ix2 j⟩
  obtain ⟨-, -, -, -, -, -, -, -, -, -, e0, e1⟩ := blocks6 t
  have hemb : (((cfg6.win 5).blk t).view.emb (ix2 p q) : S256x1.Idx) = ix2 p q := by
    funext a
    apply Fin.ext
    match a with
    | ⟨0, _⟩ => show win6_5.index t (0 : Fin 2) * 256 + 1 * p.val = p.val; omega
    | ⟨1, _⟩ => show win6_5.index t (1 : Fin 2) * 1 + 1 * q.val = q.val; omega
  show head6 h1 h0 h2 (V c main_v95) (V c main_arg7) (V c main_v96) (V c main_arg9) (V c main_v97) (ix2 p q)
    = head6 h1 h0 h2 (V c main_v95) (V c main_arg7) (V c main_v96) (V c main_arg9) (V c main_v97) (((cfg6.win 5).blk t).view.emb (ix2 p q))
  rw [hemb]

/-- An index of the result is in the point's block iff each coordinate is in the block's range on its axis. -/
theorem mem_block6 (t : Fin cfg6.N) (i : S256x1.Idx) :
    i ∈ ((cfg6.win 5).blk t).view.set ↔ ∀ a : Fin 2, win6_5.index t a * S256x1.size a ≤ (i a).val ∧ (i a).val < win6_5.index t a * S256x1.size a + S256x1.size a := by
  show i ∈ ((View.whole main_v98).slice (win6_5.rect t)).set ↔ _
  rw [View.set_slice_whole, Rect.mem_set_unit]
  exact Iff.rfl

/-- The one point's block is the whole result. -/
theorem cover6 (i : S256x1.Idx) :
    ∃ t : Fin cfg6.N, (cfg6.win 5).flush t = true ∧ i ∈ ((cfg6.win 5).blk t).view.set := by
  have hi0 : (i 0).val < 256 := (i 0).isLt
  have hi1 : (i 1).val < 1 := (i 1).isLt
  have hN : 0 < cfg6.N := lt_of_lt_of_eq Nat.one_pos N_6.symm
  refine ⟨⟨0, hN⟩, flush6_5 _, ?_⟩
  rw [mem_block6]
  obtain ⟨-, -, -, -, -, -, -, -, -, -, e0, e1⟩ := blocks6 ⟨0, hN⟩
  intro a
  match a with
  | ⟨0, _⟩ =>
    show win6_5.index ⟨0, hN⟩ (0 : Fin 2) * 256 ≤ (i 0).val ∧ (i 0).val < win6_5.index ⟨0, hN⟩ (0 : Fin 2) * 256 + 256
    rw [e0]
    omega
  | ⟨1, _⟩ =>
    show win6_5.index ⟨0, hN⟩ (1 : Fin 2) * 1 ≤ (i 1).val ∧ (i 1).val < win6_5.index ⟨0, hN⟩ (1 : Fin 2) * 1 + 1
    rw [e1]
    omega

/-- The result array after the region is the host's expression of the arrays the region found. -/
theorem final6 (V) (h1 : S1x32.BroadcastsInDim S256x32 ![0, 1]) (h0 : S_.BroadcastsInDim S256x32 ![]) (h2 : S1x1.BroadcastsInDim S256x1 ![0, 1]) (c : Dev nD) : (dat6 (F := Ideal) V c).arrAt 5 cfg6.N = (addf (FloatOps.dotGeneral (φ₁ := .f32) (φ₂ := .f32) (DotDims.plain 256 32 1) none .single (maximumf (addf (FloatOps.dotGeneral (φ₁ := .f32) (φ₂ := .f32) (DotDims.plain 256 64 32) none .single (V c main_v95) (V c main_arg7)) (broadcastInDim S256x32 ![0, 1] h1 (V c main_v96))) (broadcastInDim S256x32 ![] h0 (constant S_ .f32 0x00000000#32))) (V c main_arg9)) (broadcastInDim S256x1 ![0, 1] h2 (V c main_v97)) : FVec Ideal S256x1 .f32) :=
  (dat6 V c).arrAt_eq_of_cover 5 (head6 h1 h0 h2 (V c main_v95) (V c main_arg7) (V c main_v96) (V c main_arg9) (V c main_v97))
    (fun t _ => flushed6 V h1 h0 h2 c t) cover6

end Cert.KernelIdeal.Regions

end
-- ==== Proof.KChain.lean ====
/-
  The network, boundary by boundary.

  Both programs compute one network: three graph-convolution layers, a mean over each graph's nodes, and a two-layer
  head. The reference does it in one stretch of host operations; the kernel's program alternates stretches of the same
  host operations (the degree normalisation, the gather along the edges, the scatter into target nodes, the mean) with
  regions that compute a layer's projection, a layer's combine step, or the head, block by block. Walking the kernel's
  program from its start, each buffer it fills is shown to hold the value the reference's corresponding operation
  writes, as a function of the arguments: a host operation is the same operation on both sides; a projection region's
  blocks of rows are the rows of the one product; a combine region's blocks are the blocks of the pointwise
  combination; a bias reshaped to a row is the bias laid along the second axis; the normalisation factors the kernel
  computes once are those the reference computes again in every layer, operation for operation. No term of any sum is
  moved, so nothing is asked of the arguments' entries.
-/
import proofs.«162146_j29454885716582_1_alg».proof.Proof.Gen.KernelIdeal.Frame
import proofs.«162146_j29454885716582_1_alg».proof.Proof.Gen.ReferenceIdeal.Read
import proofs.«162146_j29454885716582_1_alg».proof.Proof.KWalk
import proofs.«162146_j29454885716582_1_alg».proof.Proof.LibBroadcastLayout
import proofs.«162146_j29454885716582_1_alg».proof.Proof.Region0
import proofs.«162146_j29454885716582_1_alg».proof.Proof.Region1
import proofs.«162146_j29454885716582_1_alg».proof.Proof.Region2
import proofs.«162146_j29454885716582_1_alg».proof.Proof.Region3
import proofs.«162146_j29454885716582_1_alg».proof.Proof.Region4
import proofs.«162146_j29454885716582_1_alg».proof.Proof.Region5
import proofs.«162146_j29454885716582_1_alg».proof.Proof.Region6
import Idealize.ShloMosaic.Lib.StableHlo.Run

set_option maxRecDepth 16384
set_option maxHeartbeats 4000000

noncomputable section

namespace Cert.KernelIdeal.Chain

open Cert.KernelIdeal Cert.KernelIdeal.Gen
open Idealize.ShloMosaic Idealize.ShloMosaic.TcCoe Idealize.ShloMosaic.Tactic Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg) (c : Dev nD)

/-! ## Before the first region: the edge lists and the normalisation factors -/

theorem v1_at1 : W1 m ρ c (Proc.devRef .tc main_v1) = Cert.ReferenceIdeal.Read.val_main_v1 (F := Ideal) (m ((c : Thread nD τ).loc main_arg11)) := by
  show StableHlo.after hostOps0 (W0 m ρ c) (Proc.devRef .tc main_v1) = _
  after_results
  rfl

theorem v3_at1 : W1 m ρ c (Proc.devRef .tc main_v3) = Cert.ReferenceIdeal.Read.val_main_v3 (F := Ideal) (m ((c : Thread nD τ).loc main_arg11)) := by
  show StableHlo.after hostOps0 (W0 m ρ c) (Proc.devRef .tc main_v3) = _
  after_results
  rfl

theorem v11_at1 : W1 m ρ c (Proc.devRef .tc main_v11) = Cert.ReferenceIdeal.Read.val_main_v40 (F := Ideal) (m ((c : Thread nD τ).loc main_arg11)) := by
  show StableHlo.after hostOps0 (W0 m ρ c) (Proc.devRef .tc main_v11) = _
  after_results
  rfl

theorem v26_at1 : W1 m ρ c (Proc.devRef .tc main_v26) = Cert.ReferenceIdeal.Read.val_main_v33 (F := Ideal) (m ((c : Thread nD τ).loc main_arg11)) := by
  show StableHlo.after hostOps0 (W0 m ρ c) (Proc.devRef .tc main_v26) = _
  after_results
  rfl

theorem v1_at2 : W2 m ρ c (Proc.devRef .tc main_v1) = Cert.ReferenceIdeal.Read.val_main_v1 (F := Ideal) (m ((c : Thread nD τ).loc main_arg11)) := by
  exact (Walk.W2_v1 m ρ c).trans (v1_at1 m ρ c)

theorem v3_at2 : W2 m ρ c (Proc.devRef .tc main_v3) = Cert.ReferenceIdeal.Read.val_main_v3 (F := Ideal) (m ((c : Thread nD τ).loc main_arg11)) := by
  exact (Walk.W2_v3 m ρ c).trans (v3_at1 m ρ c)

theorem v11_at2 : W2 m ρ c (Proc.devRef .tc main_v11) = Cert.ReferenceIdeal.Read.val_main_v40 (F := Ideal) (m ((c : Thread nD τ).loc main_arg11)) := by
  exact (Walk.W2_v11 m ρ c).trans (v11_at1 m ρ c)

theorem v26_at2 : W2 m ρ c (Proc.devRef .tc main_v26) = Cert.ReferenceIdeal.Read.val_main_v33 (F := Ideal) (m ((c : Thread nD τ).loc main_arg11)) := by
  exact (Walk.W2_v26 m ρ c).trans (v26_at1 m ρ c)

theorem v1_at5 : W5 m ρ c (Proc.devRef .tc main_v1) = Cert.ReferenceIdeal.Read.val_main_v1 (F := Ideal) (m ((c : Thread nD τ).loc main_arg11)) := by
  exact (Walk.W5_v1 m ρ c).trans (v1_at1 m ρ c)

theorem v3_at5 : W5 m ρ c (Proc.devRef .tc main_v3) = Cert.ReferenceIdeal.Read.val_main_v3 (F := Ideal) (m ((c : Thread nD τ).loc main_arg11)) := by
  exact (Walk.W5_v3 m ρ c).trans (v3_at1 m ρ c)

theorem v11_at5 : W5 m ρ c (Proc.devRef .tc main_v11) = Cert.ReferenceIdeal.Read.val_main_v40 (F := Ideal) (m ((c : Thread nD τ).loc main_arg11)) := by
  exact (Walk.W5_v11 m ρ c).trans (v11_at1 m ρ c)

theorem v26_at5 : W5 m ρ c (Proc.devRef .tc main_v26) = Cert.ReferenceIdeal.Read.val_main_v33 (F := Ideal) (m ((c : Thread nD τ).loc main_arg11)) := by
  exact (Walk.W5_v26 m ρ c).trans (v26_at1 m ρ c)

theorem v1_at8 : W8 m ρ c (Proc.devRef .tc main_v1) = Cert.ReferenceIdeal.Read.val_main_v1 (F := Ideal) (m ((c : Thread nD τ).loc main_arg11)) := by
  exact (Walk.W8_v1 m ρ c).trans (v1_at1 m ρ c)

theorem v3_at8 : W8 m ρ c (Proc.devRef .tc main_v3) = Cert.ReferenceIdeal.Read.val_main_v3 (F := Ideal) (m ((c : Thread nD τ).loc main_arg11)) := by
  exact (Walk.W8_v3 m ρ c).trans (v3_at1 m ρ c)

theorem v11_at8 : W8 m ρ c (Proc.devRef .tc main_v11) = Cert.ReferenceIdeal.Read.val_main_v40 (F := Ideal) (m ((c : Thread nD τ).loc main_arg11)) := by
  exact (Walk.W8_v11 m ρ c).trans (v11_at1 m ρ c)

theorem v26_at8 : W8 m ρ c (Proc.devRef .tc main_v26) = Cert.ReferenceIdeal.Read.val_main_v33 (F := Ideal) (m ((c : Thread nD τ).loc main_arg11)) := by
  exact (Walk.W8_v26 m ρ c).trans (v26_at1 m ρ c)

/-! ## Layer 1 -/

/-- The layer's projection: the region's ten blocks of rows are the rows of the one product of the whole arrays. -/
theorem v27_at2 : W2 m ρ c (Proc.devRef .tc main_v27) = Cert.ReferenceIdeal.Read.val_main_v4 (F := Ideal) (m ((c : Thread nD τ).loc main_arg0)) (m ((c : Thread nD τ).loc main_arg1)) := by
  refine (W2_arr m ρ c 2).trans ?_
  rw [Regions.final0 (V1 m ρ) c]
  show (FloatOps.dotGeneral (φ₁ := .f32) (φ₂ := .f32) _ none .single (W1 m ρ c (Proc.devRef .tc main_arg0)) (W1 m ρ c (Proc.devRef .tc main_arg1)) : FVec Ideal S50000x64 .f32) = _
  rw [Walk.W1_arg0 m ρ c, Walk.W1_arg1 m ρ c]
  rfl

/-- The messages gathered along the edges, scaled, and summed into their target nodes. -/
theorem v40_at3 : W3 m ρ c (Proc.devRef .tc main_v40) = Cert.ReferenceIdeal.Read.val_main_v39 (F := Ideal) (m ((c : Thread nD τ).loc main_arg0)) (m ((c : Thread nD τ).loc main_arg1)) (m ((c : Thread nD τ).loc main_arg11)) := by
  show StableHlo.after hostOps1 (W2 m ρ c) (Proc.devRef .tc main_v40) = _
  after_results
  rw [v3_at2 m ρ c, v1_at2 m ρ c, v26_at2 m ρ c, v27_at2 m ρ c]
  rfl

/-- Each node's own projected features, scaled. -/
theorem v43_at3 : W3 m ρ c (Proc.devRef .tc main_v43) = Cert.ReferenceIdeal.Read.val_main_v43 (F := Ideal) (m ((c : Thread nD τ).loc main_arg0)) (m ((c : Thread nD τ).loc main_arg1)) (m ((c : Thread nD τ).loc main_arg11)) := by
  show StableHlo.after hostOps1 (W2 m ρ c) (Proc.devRef .tc main_v43) = _
  after_results
  rw [v27_at2 m ρ c, v11_at2 m ρ c]
  rfl

/-- The bias laid as a row: the reshape of a vector to one row is its layout along the second axis. -/
theorem v44_at3 : W3 m ρ c (Proc.devRef .tc main_v44) = Cert.ReferenceIdeal.Read.val_main_v45 (F := Ideal) (m ((c : Thread nD τ).loc main_arg2)) := by
  show StableHlo.after hostOps1 (W2 m ρ c) (Proc.devRef .tc main_v44) = _
  after_results
  rw [Walk.W2_arg2 m ρ c]
  exact (BroadcastLayout.row_eq_shapeCast (a := 64) ![1] rfl _ _ _).symm

/-- The layer's output: aggregate plus self term plus bias, cut off below at zero, block by block. -/
theorem v45_at4 : W4 m ρ c (Proc.devRef .tc main_v45) = Cert.ReferenceIdeal.Read.val_main_v48 (F := Ideal) (m ((c : Thread nD τ).loc main_arg0)) (m ((c : Thread nD τ).loc main_arg1)) (m ((c : Thread nD τ).loc main_arg2)) (m ((c : Thread nD τ).loc main_arg11)) := by
  refine (W4_arr m ρ c 3).trans ?_
  rw [Regions.final1 (V3 m ρ) Cert.ReferenceIdeal.Facts₀.bcast_S1x64_S50000x64_0_1 Cert.ReferenceIdeal.Facts₀.bcast_S_S50000x64 c]
  show (maximumf (addf (addf (W3 m ρ c (Proc.devRef .tc main_v40)) (W3 m ρ c (Proc.devRef .tc main_v43))) (broadcastInDim _ _ _ (W3 m ρ c (Proc.devRef .tc main_v44)))) _ : FVec Ideal S50000x64 .f32) = _
  rw [v40_at3 m ρ c, v43_at3 m ρ c, v44_at3 m ρ c]
  rfl

/-! ## Layer 2 -/

/-- The layer's projection: the region's ten blocks of rows are the rows of the one product of the whole arrays. -/
theorem v46_at5 : W5 m ρ c (Proc.devRef .tc main_v46) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg11)) := by
  refine (W5_arr m ρ c 2).trans ?_
  rw [Regions.final2 (V4 m ρ) c]
  show (FloatOps.dotGeneral (φ₁ := .f32) (φ₂ := .f32) _ none .single (W4 m ρ c (Proc.devRef .tc main_v45)) (W4 m ρ c (Proc.devRef .tc main_arg3)) : FVec Ideal S50000x128 .f32) = _
  rw [v45_at4 m ρ c, Walk.W4_arg3 m ρ c]
  rfl

/-- The messages gathered along the edges, scaled, and summed into their target nodes. -/
theorem v59_at6 : W6 m ρ c (Proc.devRef .tc main_v59) = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg11)) := by
  show StableHlo.after hostOps3 (W5 m ρ c) (Proc.devRef .tc main_v59) = _
  after_results
  rw [v3_at5 m ρ c, v1_at5 m ρ c, v26_at5 m ρ c, v46_at5 m ρ c]
  rfl

/-- Each node's own projected features, scaled. -/
theorem v62_at6 : W6 m ρ c (Proc.devRef .tc main_v62) = Cert.ReferenceIdeal.Read.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg11)) := by
  show StableHlo.after hostOps3 (W5 m ρ c) (Proc.devRef .tc main_v62) = _
  after_results
  rw [v46_at5 m ρ c, v11_at5 m ρ c]
  rfl

/-- The bias laid as a row: the reshape of a vector to one row is its layout along the second axis. -/
theorem v63_at6 : W6 m ρ c (Proc.devRef .tc main_v63) = Cert.ReferenceIdeal.Read.val_main_v90 (F := Ideal) (m ((c : Thread nD τ).loc main_arg4)) := by
  show StableHlo.after hostOps3 (W5 m ρ c) (Proc.devRef .tc main_v63) = _
  after_results
  rw [Walk.W5_arg4 m ρ c]
  exact (BroadcastLayout.row_eq_shapeCast (a := 128) ![1] rfl _ _ _).symm

/-- The layer's output: aggregate plus self term plus bias, cut off below at zero, block by block. -/
theorem v64_at7 : W7 m ρ c (Proc.devRef .tc main_v64) = Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) := by
  refine (W7_arr m ρ c 3).trans ?_
  rw [Regions.final3 (V6 m ρ) Cert.ReferenceIdeal.Facts₀.bcast_S1x128_S50000x128_0_1 Cert.ReferenceIdeal.Facts₀.bcast_S_S50000x128 c]
  show (maximumf (addf (addf (W6 m ρ c (Proc.devRef .tc main_v59)) (W6 m ρ c (Proc.devRef .tc main_v62))) (broadcastInDim _ _ _ (W6 m ρ c (Proc.devRef .tc main_v63)))) _ : FVec Ideal S50000x128 .f32) = _
  rw [v59_at6 m ρ c, v62_at6 m ρ c, v63_at6 m ρ c]
  rfl

/-! ## Layer 3 -/

/-- The layer's projection: the region's ten blocks of rows are the rows of the one product of the whole arrays. -/
theorem v65_at8 : W8 m ρ c (Proc.devRef .tc main_v65) = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg11)) := by
  refine (W8_arr m ρ c 2).trans ?_
  rw [Regions.final4 (V7 m ρ) c]
  show (FloatOps.dotGeneral (φ₁ := .f32) (φ₂ := .f32) _ none .single (W7 m ρ c (Proc.devRef .tc main_v64)) (W7 m ρ c (Proc.devRef .tc main_arg5)) : FVec Ideal S50000x64 .f32) = _
  rw [v64_at7 m ρ c, Walk.W7_arg5 m ρ c]
  rfl

/-- The messages gathered along the edges, scaled, and summed into their target nodes. -/
theorem v78_at9 : W9 m ρ c (Proc.devRef .tc main_v78) = Cert.ReferenceIdeal.Read.val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg11)) := by
  show StableHlo.after hostOps5 (W8 m ρ c) (Proc.devRef .tc main_v78) = _
  after_results
  rw [v3_at8 m ρ c, v1_at8 m ρ c, v26_at8 m ρ c, v65_at8 m ρ c]
  rfl

/-- Each node's own projected features, scaled. -/
theorem v81_at9 : W9 m ρ c (Proc.devRef .tc main_v81) = Cert.ReferenceIdeal.Read.val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg11)) := by
  show StableHlo.after hostOps5 (W8 m ρ c) (Proc.devRef .tc main_v81) = _
  after_results
  rw [v65_at8 m ρ c, v11_at8 m ρ c]
  rfl

/-- The bias laid as a row: the reshape of a vector to one row is its layout along the second axis. -/
theorem v82_at9 : W9 m ρ c (Proc.devRef .tc main_v82) = Cert.ReferenceIdeal.Read.val_main_v135 (F := Ideal) (m ((c : Thread nD τ).loc main_arg6)) := by
  show StableHlo.after hostOps5 (W8 m ρ c) (Proc.devRef .tc main_v82) = _
  after_results
  rw [Walk.W8_arg6 m ρ c]
  exact (BroadcastLayout.row_eq_shapeCast (a := 64) ![1] rfl _ _ _).symm

/-- The layer's output: aggregate plus self term plus bias, cut off below at zero, block by block. -/
theorem v83_at10 : W10 m ρ c (Proc.devRef .tc main_v83) = Cert.ReferenceIdeal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) := by
  refine (W10_arr m ρ c 3).trans ?_
  rw [Regions.final5 (V9 m ρ) Cert.ReferenceIdeal.Facts₀.bcast_S1x64_S50000x64_0_1 Cert.ReferenceIdeal.Facts₀.bcast_S_S50000x64 c]
  show (maximumf (addf (addf (W9 m ρ c (Proc.devRef .tc main_v78)) (W9 m ρ c (Proc.devRef .tc main_v81))) (broadcastInDim _ _ _ (W9 m ρ c (Proc.devRef .tc main_v82)))) _ : FVec Ideal S50000x64 .f32) = _
  rw [v78_at9 m ρ c, v81_at9 m ρ c, v82_at9 m ρ c]
  rfl

/-! ## The mean over each graph's nodes, and the head -/

/-- The nodes' features summed per graph and divided by the graph's node count, at least one. -/
theorem v95_at11 : W11 m ρ c (Proc.devRef .tc main_v95) = Cert.ReferenceIdeal.Read.val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) := by
  show StableHlo.after hostOps6 (W10 m ρ c) (Proc.devRef .tc main_v95) = _
  after_results
  rw [v83_at10 m ρ c, Walk.W10_arg12 m ρ c]
  rfl

/-- A head bias laid as a row. -/
theorem v96_at11 : W11 m ρ c (Proc.devRef .tc main_v96) = Cert.ReferenceIdeal.Read.val_main_v152 (F := Ideal) (m ((c : Thread nD τ).loc main_arg8)) := by
  show StableHlo.after hostOps6 (W10 m ρ c) (Proc.devRef .tc main_v96) = _
  after_results
  rw [Walk.W10_arg8 m ρ c]
  exact (BroadcastLayout.row_eq_shapeCast (a := 32) ![1] rfl _ _ _).symm

/-- A head bias laid as a row. -/
theorem v97_at11 : W11 m ρ c (Proc.devRef .tc main_v97) = Cert.ReferenceIdeal.Read.val_main_v157 (F := Ideal) (m ((c : Thread nD τ).loc main_arg10)) := by
  show StableHlo.after hostOps6 (W10 m ρ c) (Proc.devRef .tc main_v97) = _
  after_results
  rw [Walk.W10_arg10 m ρ c]
  exact (BroadcastLayout.row_eq_shapeCast (a := 1) ![1] rfl _ _ _).symm

/-- THE RESULT: what the last region leaves in the result buffer is the reference network's value of the arguments. -/
theorem result : W12 m ρ c (Proc.devRef .tc main_v98) = Cert.ReferenceIdeal.Read.val_main_v159 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W12_arr m ρ c 5).trans ?_
  rw [Regions.final6 (V11 m ρ) Cert.ReferenceIdeal.Facts₀.bcast_S1x32_S256x32_0_1 Cert.ReferenceIdeal.Facts₀.bcast_S_S256x32 Cert.ReferenceIdeal.Facts₀.bcast_S1x1_S256x1_0_1 c]
  show (addf (FloatOps.dotGeneral (φ₁ := .f32) (φ₂ := .f32) _ none .single (maximumf (addf (FloatOps.dotGeneral (φ₁ := .f32) (φ₂ := .f32) _ none .single (W11 m ρ c (Proc.devRef .tc main_v95)) (W11 m ρ c (Proc.devRef .tc main_arg7))) (broadcastInDim _ _ _ (W11 m ρ c (Proc.devRef .tc main_v96)))) _) (W11 m ρ c (Proc.devRef .tc main_arg9))) (broadcastInDim _ _ _ (W11 m ρ c (Proc.devRef .tc main_v97))) : FVec Ideal S256x1 .f32) = _
  rw [v95_at11 m ρ c, v96_at11 m ρ c, v97_at11 m ρ c, Walk.W11_arg7 m ρ c, Walk.W11_arg9 m ρ c]
  rfl

end Cert.KernelIdeal.Chain

end
-- ==== Proof.lean ====
/-
  A three-layer graph convolution network with a mean over each graph's nodes and a two-layer head: the kernel's
  program against its reference, on the extended reals.

  The two programs apply the same operations in the same order. Per layer: project the node features by a weight
  matrix; gather the projected rows along the edges' sources, scale each by the product of its two endpoints' inverse
  square-root degrees, and sum the scaled rows into the edges' targets; add each node's own projected row scaled by its
  inverse degree; add the bias; cut off below at zero. Then sum the node features per graph, divide by the graph's node
  count (at least one), and apply the head: product, bias, cut-off, product, bias. The kernel's program computes the
  projections, the combine steps and the head in regions, block of rows by block of rows, and the degree factors once;
  the reference computes everything on whole arrays and the degree factors again in every layer. A block of rows of a
  matrix product is the product of that block of rows, and a pointwise combination is taken block by block, so both
  programs end with the same array: no sum is reordered and no factor is moved across a sum, and the arguments'
  finiteness is never used. The kernel's idealization rewrote no operation, so there is nothing to preserve beyond the
  program's own text.

  The parts: the run of the kernel's program with its result buffer named (Proof/KRun.lean); the buffers a stretch of
  the program leaves alone (Proof/KWalk.lean); the seven regions' arrays as whole-array operations of what each region
  found (Proof/Region0.lean … Region6.lean, over the entry lemmas of the Lib files); the walk through the program,
  boundary by boundary, against the reference's operations (Proof/KChain.lean); and the reference's own run and its
  operations one at a time, which are generated modules.
-/
import proofs.«162146_j29454885716582_1_alg».proof.Defs
import proofs.«162146_j29454885716582_1_alg».proof.Proof.Gen.Kernel
import proofs.«162146_j29454885716582_1_alg».proof.Proof.Gen.Kernel.Frame
import proofs.«162146_j29454885716582_1_alg».proof.Proof.Gen.KernelIdeal
import proofs.«162146_j29454885716582_1_alg».proof.Proof.Gen.KernelIdeal.Frame
import proofs.«162146_j29454885716582_1_alg».proof.Proof.Gen.ReferenceIdeal
import proofs.«162146_j29454885716582_1_alg».proof.Proof.Gen.ReferenceIdeal.Run
import proofs.«162146_j29454885716582_1_alg».proof.Proof.Gen.ReferenceIdeal.Read
import proofs.«162146_j29454885716582_1_alg».proof.Proof.Gen.Pre_finite_inputs
import proofs.«162146_j29454885716582_1_alg».proof.Proof.KRun
import proofs.«162146_j29454885716582_1_alg».proof.Proof.KChain
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the reference network's value of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.Read.val_main_v159 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c => ⟨(h c).1.trans (Cert.KernelIdeal.Chain.result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v159_eq]
    obtain ⟨e0, e1, e2, e3, e4, e5, e6, e7, e8, e9, e10, e11, e12⟩ := hagree c
    rw [e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
